-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 121
  | .vmem => 45
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S50000, .f32⟩
  | .hbm, ⟨23, _⟩ => ⟨S1600000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S50000x128, .f32⟩
  | .hbm, ⟨79, _⟩ => ⟨S1600000x1, .i32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S128, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S1x128, .f32⟩
  | .hbm, ⟨103, _⟩ => ⟨S50000x128, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x128, .f32⟩
  | .hbm, ⟨113, _⟩ => ⟨S_, .f32⟩
  | .hbm, ⟨114, _⟩ => ⟨S50000x128, .f32⟩
  | .hbm, ⟨115, _⟩ => ⟨S1600000x1, .i32⟩
  | .hbm, ⟨116, _⟩ => ⟨S50000x128, .f32⟩
  | .hbm, ⟨117, _⟩ => ⟨S50000x128, .f32⟩
  | .hbm, ⟨118, _⟩ => ⟨S50000x128, .f32⟩
  | .hbm, ⟨119, _⟩ => ⟨S1x128, .f32⟩
  | .hbm, ⟨120, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_7 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_c_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_11 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_18 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v69) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v41) S5000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v70) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v82) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S50000, .f32⟩
  | 23 => ⟨S1600000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .f32⟩
  | 31 => ⟨S50000x1, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000x128, .f32⟩
  | 41 => ⟨S_, .f32⟩
  | 42 => ⟨S50000x128, .f32⟩
  | 43 => ⟨S1600000x1, .i32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .f32⟩
  | 57 => ⟨S128, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S50000x128, .f32⟩
  | 65 => ⟨S_, .f32⟩
  | 66 => ⟨S128, .f32⟩
  | 67 => ⟨S_, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S128, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S1x128, .f32⟩
  | 84 => ⟨S50000x128, .f32⟩
  | 85 => ⟨S50000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S50000x128, .f32⟩
  | 97 => ⟨S1600000x1, .i32⟩
  | 98 => ⟨S50000x128, .f32⟩
  | 99 => ⟨S50000x128, .f32⟩
  | 100 => ⟨S50000x128, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .f32⟩
  | 111 => ⟨S128, .f32⟩
  | 112 => ⟨S_, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S50000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S128, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S50000x128, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S50000x128, .f32⟩
  | 24 => ⟨S1600000x1, .i32⟩
  | 25 => ⟨S50000x128, .f32⟩
  | 26 => ⟨S50000x128, .f32⟩
  | 27 => ⟨S50000x128, .f32⟩
  | 28 => ⟨S50000x128, .f32⟩
  | 29 => ⟨S50000x128, .f32⟩
  | 30 => ⟨S50000x128, .f32⟩
  | 31 => ⟨S1x128, .f32⟩
  | 32 => ⟨S50000x128, .f32⟩
  | 33 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call0_cst : Ref sig .tc := ⟨.hbm, 53, rfl⟩
abbrev main_call0_v0 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_cst_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_10 : Ref sig .tc := ⟨.hbm, 86, rfl⟩
abbrev main_v57 : Ref sig .tc := ⟨.hbm, 87, rfl⟩
abbrev main_v58 : Ref sig .tc := ⟨.hbm, 88, rfl⟩
abbrev main_c_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call1_cst : Ref sig .tc := ⟨.hbm, 107, rfl⟩
abbrev main_call1_v0 : Ref sig .tc := ⟨.hbm, 108, rfl⟩
abbrev main_v75 : Ref sig .tc := ⟨.hbm, 109, rfl⟩
abbrev main_cst_13 : Ref sig .tc := ⟨.hbm, 110, rfl⟩
abbrev main_v76 : Ref sig .tc := ⟨.hbm, 111, rfl⟩
abbrev main_cst_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_cst_16 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_17 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_18 : Ref sig .tc := ⟨.hbm, 141, rfl⟩
abbrev main_v102 : Ref sig .tc := ⟨.hbm, 142, rfl⟩
abbrev main_v103 : Ref sig .tc := ⟨.hbm, 143, rfl⟩
abbrev main_c_19 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_20 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Run.lean ====
/-
  The idealized kernel program's run with its result named.

  Its @main is five regions among five stretches of host operations.  Every weakly fair execution terminates, nothing
  faulting, and in the final state every buffer the program does not scope holds the last boundary's contents: the
  fold of the stretches and of the regions' write-backs from the launch memory.  Read at the result buffer and at each
  argument, that is: the result at the fold's value there, the arguments as launched.
-/
import proofs.«114993_j59837484368530_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v84) = W10 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v84 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c)⟩)

end Cert.KernelIdeal.Whole

end
-- ==== Proof.LibPlainDot.lean ====
/-
  A plain matrix product read at an index.

  For the dimension numbers of an M×K by K×N product (contract the left operand's columns against the right
  operand's rows, no batch axis), the sum over the contraction index of the products of the operands at the
  dot's operand indices is the textbook sum: entry (r, c) is the sum over k of left (r, k) times right (k, c).
  The same sum reads a vector unit's matmul into a zero accumulator and the host's dot_general at the ideal
  values, so the two are one function of their operands.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The textbook product of an M×K and a K×N array of extended reals. -/
def mm {M K N : Nat} (A : (⟨2, ![M, K]⟩ : Shape).Idx → EReal) (B : (⟨2, ![K, N]⟩ : Shape).Idx → EReal) :
    (⟨2, ![M, N]⟩ : Shape).Idx → EReal :=
  fun j => ∑ k : Fin K, A (ix2 (j 0) k) * B (ix2 k (j 1))

/-- The left operand's index at output index `j` and contraction index `q` is (row of `j`, `q`). -/
theorem lhsIdx_plain {M K N : Nat} (j : (⟨2, ![M, N]⟩ : Shape).Idx) (k : Fin K) :
    (DotDims.plain M K N).lhsIdx j ((contrEquiv1 (DotDims.plain M K N) K rfl rfl).symm k) = ix2 (j 0) k := by
  funext a
  apply Fin.ext
  have hk := contrEquiv1_symm_val (DotDims.plain M K N) K rfl rfl k
  match a with
  | ⟨0, _⟩ => rfl
  | ⟨1, _⟩ => exact ((DotDims.plain M K N).lhsIdx_val_of_single rfl j _).trans hk

/-- The right operand's index there is (`q`, column of `j`). -/
theorem rhsIdx_plain {M K N : Nat} (j : (⟨2, ![M, N]⟩ : Shape).Idx) (k : Fin K) :
    (DotDims.plain M K N).rhsIdx j ((contrEquiv1 (DotDims.plain M K N) K rfl rfl).symm k) = ix2 k (j 1) := by
  funext a
  apply Fin.ext
  have hk := contrEquiv1_symm_val (DotDims.plain M K N) K rfl rfl k
  match a with
  | ⟨0, _⟩ => exact ((DotDims.plain M K N).rhsIdx_val_of_single rfl j _).trans hk
  | ⟨1, _⟩ => rfl

/-- The contraction's sum, re-indexed by the one contracted coordinate. -/
theorem sum_plain {M K N : Nat} (A : (⟨2, ![M, K]⟩ : Shape).Idx → EReal) (B : (⟨2, ![K, N]⟩ : Shape).Idx → EReal)
    (j : (⟨2, ![M, N]⟩ : Shape).Idx) :
    ∑ q : (DotDims.plain M K N).contr.Idx, A ((DotDims.plain M K N).lhsIdx j q) * B ((DotDims.plain M K N).rhsIdx j q)
      = mm A B j := by
  unfold mm
  rw [← Equiv.sum_comp (contrEquiv1 (DotDims.plain M K N) K rfl rfl).symm]
  refine Finset.sum_congr rfl fun k _ => ?_
  rw [lhsIdx_plain, rhsIdx_plain]
  rfl

/-- A vector unit's matmul into the zero accumulator is the textbook product. -/
theorem matmul_zero_eq_mm {M K N : Nat} {φ₁ φ₂ : FTy} (prec : Option ContractPrecision)
    (A : FVec Ideal ⟨2, ![M, K]⟩ φ₁) (B : FVec Ideal ⟨2, ![K, N]⟩ φ₂) :
    FloatOps.matmul (DotDims.plain M K N) prec A B (constant ⟨2, ![M, N]⟩ .f32 0x00000000#32) = mm A B := by
  funext j
  rw [Ideal.matmul_constant_zero_apply]
  exact sum_plain A B j

/-- The host's dot_general is the textbook product, whatever the schedule. -/
theorem dotGeneral_eq_mm {M K N : Nat} {φ₁ φ₂ : FTy} (prec : Option ContractPrecision) (sched : HostSchedule)
    (A : FVec Ideal ⟨2, ![M, K]⟩ φ₁) (B : FVec Ideal ⟨2, ![K, N]⟩ φ₂) :
    FloatOps.dotGeneral (DotDims.plain M K N) prec sched A B = mm A B := by
  funext j
  rw [Ideal.dotGeneral_apply]
  exact sum_plain A B j

end Idealize.ShloMosaic.PlainDot

end
-- ==== Proof.LibRowBlocks.lean ====
/-
  The rows of a matrix product.

  Entry (r, c) of A·B depends on row r of A only: it is the sum over k of A (r, k) · B (k, c). So if a block Ab of
  Mb rows holds rows base … base + Mb − 1 of A, then row r of Ab·B is row base + r of A·B. This is what lets a
  product computed block of rows by block of rows be read as one product of the whole arrays.
-/
import proofs.«114993_j59837484368530_1_alg».proof.Proof.LibPlainDot

noncomputable section

open scoped BigOperators

namespace Idealize.ShloMosaic.RowBlocks

open Idealize.ShloMosaic Idealize.ShloMosaic.ValueIdx Idealize.ShloMosaic.PlainDot

/-- If row `j 0` of the block `Ab` is row `i 0` of `A` and the two indices name the same column, the block's product
    with `B` at `j` is the whole product at `i`. -/
theorem mm_block_entry {M Mb K N : Nat} (A : (⟨2, ![M, K]⟩ : Shape).Idx → EReal) (Ab : (⟨2, ![Mb, K]⟩ : Shape).Idx → EReal)
    (B : (⟨2, ![K, N]⟩ : Shape).Idx → EReal) (i : (⟨2, ![M, N]⟩ : Shape).Idx) (j : (⟨2, ![Mb, N]⟩ : Shape).Idx)
    (hrow : ∀ k : Fin K, Ab (ix2 (j 0) k) = A (ix2 (i 0) k)) (hcol : (j 1).val = (i 1).val) :
    mm Ab B j = mm A B i := by
  unfold mm
  refine Finset.sum_congr rfl fun k _ => ?_
  rw [hrow k]
  refine congrArg (A (ix2 (i 0) k) * B ·) ?_
  funext a
  match a with
  | ⟨0, _⟩ => rfl
  | ⟨1, _⟩ => exact Fin.ext hcol

end Idealize.ShloMosaic.RowBlocks

end
-- ==== Proof.LibGraphLayers.lean ====
/-
  The layers of the network as functions of whole arrays of extended reals.

  One message-passing layer takes, for every node r, the averaged neighbour row A r and the node's own row X r,
  multiplies each by its own weight matrix, adds the two products and a bias row:

      combine (r, c) = (sum over k of A (r, k) * Wl (k, c)) + (sum over k of X (r, k) * Wr (k, c)) + b (0, c),

  and the first two layers then replace negative entries by zero (rectify).  A normalisation step takes per-column
  statistics mu and var (one row each), a gain row g and a shift row be, and maps

      normalize (r, c) = g c * (H (r, c) - mu c) * rsqrt (var c + eps) + be c;

  the second one adds the first normalised array back (normalizeRes).  Entry (r, c) of each of these depends on
  row r of the tall operands only, so a block of rows of the result is the same function of that block of rows of the
  operands (the *_block_entry lemmas): this is what lets an array computed block of rows by block of rows be read as one
  function of the whole arrays.  Nothing here needs a finite entry: only sums, products and the pointwise
  operations are compared, term by term.
-/
import proofs.«114993_j59837484368530_1_alg».proof.Proof.LibRowBlocks

noncomputable section

open scoped BigOperators

namespace Cert.GraphLayers

open Idealize.ShloMosaic Idealize.ShloMosaic.ValueIdx Idealize.ShloMosaic.PlainDot

/-- The linear part of a layer: the neighbour mean and the node's own features, each through its weights, plus the bias row. -/
def combine {M K N : Nat} (A X : (⟨2, ![M, K]⟩ : Shape).Idx → EReal) (Wl Wr : (⟨2, ![K, N]⟩ : Shape).Idx → EReal)
    (b : (⟨2, ![1, N]⟩ : Shape).Idx → EReal) : (⟨2, ![M, N]⟩ : Shape).Idx → EReal :=
  fun j => mm A Wl j + mm X Wr j + b (ix2 (0 : Fin 1) (j 1))

/-- A vector of per-column values as a one-row array: entry (0, c) is the value of column c. -/
def rowOf {N : Nat} (b : (⟨1, ![N]⟩ : Shape).Idx → EReal) : (⟨2, ![1, N]⟩ : Shape).Idx → EReal :=
  fun j => b (ix1 (j 1))

/-- Negative entries replaced by zero. -/
def rectify {M N : Nat} (H : (⟨2, ![M, N]⟩ : Shape).Idx → EReal) : (⟨2, ![M, N]⟩ : Shape).Idx → EReal :=
  fun j => max (H j) 0

/-- The variance offset, as the single-precision word both programs spell. -/
def eps : EReal := Ideal.ofBits .f32 0x3727C5AC#32

/-- Column-wise normalisation with given statistics, gain and shift rows. -/
def normalize {M N : Nat} (H : (⟨2, ![M, N]⟩ : Shape).Idx → EReal) (mu var g be : (⟨2, ![1, N]⟩ : Shape).Idx → EReal) :
    (⟨2, ![M, N]⟩ : Shape).Idx → EReal :=
  fun j => g (ix2 (0 : Fin 1) (j 1)) * (H j - mu (ix2 (0 : Fin 1) (j 1))) * Ideal.rsqrt (var (ix2 (0 : Fin 1) (j 1)) + eps)
    + be (ix2 (0 : Fin 1) (j 1))

/-- The same with another array added back entry by entry. -/
def normalizeRes {M N : Nat} (H : (⟨2, ![M, N]⟩ : Shape).Idx → EReal) (mu var g be : (⟨2, ![1, N]⟩ : Shape).Idx → EReal)
    (R : (⟨2, ![M, N]⟩ : Shape).Idx → EReal) : (⟨2, ![M, N]⟩ : Shape).Idx → EReal :=
  fun j => normalize H mu var g be j + R j

/-- Entry j of the linear part on a block of rows is entry i of it on the whole arrays, when row (j 0) of each blocked
    operand is row (i 0) of the whole one and the two indices name the same column. -/
theorem combine_block_entry {M Mb K N : Nat} (A X : (⟨2, ![M, K]⟩ : Shape).Idx → EReal) (Ab Xb : (⟨2, ![Mb, K]⟩ : Shape).Idx → EReal)
    (Wl Wr : (⟨2, ![K, N]⟩ : Shape).Idx → EReal) (b : (⟨2, ![1, N]⟩ : Shape).Idx → EReal)
    (i : (⟨2, ![M, N]⟩ : Shape).Idx) (j : (⟨2, ![Mb, N]⟩ : Shape).Idx)
    (hA : ∀ k : Fin K, Ab (ix2 (j 0) k) = A (ix2 (i 0) k))
    (hX : ∀ k : Fin K, Xb (ix2 (j 0) k) = X (ix2 (i 0) k))
    (hcol : (j 1).val = (i 1).val) :
    combine Ab Xb Wl Wr b j = combine A X Wl Wr b i := by
  unfold combine
  rw [Idealize.ShloMosaic.RowBlocks.mm_block_entry A Ab Wl i j hA hcol,
      Idealize.ShloMosaic.RowBlocks.mm_block_entry X Xb Wr i j hX hcol]
  have hc : (j 1 : Fin N) = i 1 := Fin.ext hcol
  rw [hc]

/-- The same for the rectified layer. -/
theorem rectify_combine_block_entry {M Mb K N : Nat} (A X : (⟨2, ![M, K]⟩ : Shape).Idx → EReal) (Ab Xb : (⟨2, ![Mb, K]⟩ : Shape).Idx → EReal)
    (Wl Wr : (⟨2, ![K, N]⟩ : Shape).Idx → EReal) (b : (⟨2, ![1, N]⟩ : Shape).Idx → EReal)
    (i : (⟨2, ![M, N]⟩ : Shape).Idx) (j : (⟨2, ![Mb, N]⟩ : Shape).Idx)
    (hA : ∀ k : Fin K, Ab (ix2 (j 0) k) = A (ix2 (i 0) k))
    (hX : ∀ k : Fin K, Xb (ix2 (j 0) k) = X (ix2 (i 0) k))
    (hcol : (j 1).val = (i 1).val) :
    rectify (combine Ab Xb Wl Wr b) j = rectify (combine A X Wl Wr b) i := by
  unfold rectify
  rw [combine_block_entry A X Ab Xb Wl Wr b i j hA hX hcol]

/-- Entry j of the normalisation of a block is entry i of the normalisation of the whole array, when the block's entry is
    the whole array's there and the columns agree. -/
theorem normalize_block_entry {M Mb N : Nat} (H : (⟨2, ![M, N]⟩ : Shape).Idx → EReal) (Hb : (⟨2, ![Mb, N]⟩ : Shape).Idx → EReal)
    (mu var g be : (⟨2, ![1, N]⟩ : Shape).Idx → EReal)
    (i : (⟨2, ![M, N]⟩ : Shape).Idx) (j : (⟨2, ![Mb, N]⟩ : Shape).Idx)
    (hH : Hb j = H i) (hcol : (j 1).val = (i 1).val) :
    normalize Hb mu var g be j = normalize H mu var g be i := by
  unfold normalize
  have hc : (j 1 : Fin N) = i 1 := Fin.ext hcol
  rw [hH, hc]

/-- The same with the added-back array read block by block as well. -/
theorem normalizeRes_block_entry {M Mb N : Nat} (H R : (⟨2, ![M, N]⟩ : Shape).Idx → EReal) (Hb Rb : (⟨2, ![Mb, N]⟩ : Shape).Idx → EReal)
    (mu var g be : (⟨2, ![1, N]⟩ : Shape).Idx → EReal)
    (i : (⟨2, ![M, N]⟩ : Shape).Idx) (j : (⟨2, ![Mb, N]⟩ : Shape).Idx)
    (hH : Hb j = H i) (hR : Rb j = R i) (hcol : (j 1).val = (i 1).val) :
    normalizeRes Hb mu var g be Rb j = normalizeRes H mu var g be R i := by
  unfold normalizeRes
  rw [normalize_block_entry H Hb mu var g be i j hH hcol, hR]

end Cert.GraphLayers

end
-- ==== Proof.Bodies.lean ====
/-
  What each of the five kernel bodies stores, as a layer function of the blocks it loads.

  The three linear bodies load a block of 5000 rows of the averaged neighbour features and of the nodes' own
  features, the two weight matrices whole and the bias row, and store  A·Wl + X·Wr + b  (the first two followed by the
  maximum with zero): the conversions to the narrower float format are the identity on extended reals, a product into
  the zero accumulator is the textbook sum, and the bias row is repeated down the rows.  The two normalising bodies
  load a block of rows, the statistics, gain and shift rows, and store  g·(h − mu)·rsqrt(var + eps) + be  entry by
  entry, the second adding a block of the earlier array back.
-/
import proofs.«114993_j59837484368530_1_alg».proof.Proof.Gen.KernelIdeal.Skeleton
import proofs.«114993_j59837484368530_1_alg».proof.Proof.LibGraphLayers
import Idealize.ShloMosaic.Lib.Pipeline.Value
import Idealize.ShloMosaic.Lib.ValueLayout

noncomputable section

open scoped BigOperators

namespace Cert.KernelIdeal.Bodies

open Cert.KernelIdeal Cert.KernelIdeal.Gen Idealize.ShloMosaic Idealize.ShloMosaic.ValueIdx Idealize.ShloMosaic.PlainDot
open Cert.GraphLayers

/-- The linear part with the bias row repeated down the rows, read at an entry. -/
theorem linear_entry (x0 x1 : (⟨2, ![5000, 128]⟩ : Shape).Idx → EReal) (x2 x3 : (⟨2, ![128, 128]⟩ : Shape).Idx → EReal)
    (x4 : (⟨2, ![1, 128]⟩ : Shape).Idx → EReal) (h : (⟨2, ![1, 128]⟩ : Shape).Broadcasts ⟨2, ![5000, 128]⟩) (p : Fin 5000) (q : Fin 128) :
    FloatOps.matmul (F := Ideal) (φ₁ := .bf16) (φ₂ := .bf16) (DotDims.plain 5000 128 128) none x0 x2 (constant ⟨2, ![5000, 128]⟩ .f32 0x00000000#32) (ix2 p q)
      + FloatOps.matmul (F := Ideal) (φ₁ := .bf16) (φ₂ := .bf16) (DotDims.plain 5000 128 128) none x1 x3 (constant ⟨2, ![5000, 128]⟩ .f32 0x00000000#32) (ix2 p q)
      + broadcastTo ⟨2, ![5000, 128]⟩ x4 h (ix2 p q)
    = combine x0 x1 x2 x3 x4 (ix2 p q) := by
  rw [matmul_zero_eq_mm, matmul_zero_eq_mm, broadcastTo_1b_ab_apply]
  rfl

/-- The first layer's body: the rectified linear part of its blocks. -/
theorem body0 (x0 x1 : Vec Ideal S5000x128 .f32) (x2 x3 : Vec Ideal S128x128 .f32) (x4 : Vec Ideal S1x128 .f32) :
    k0_pay1 x0 x1 x2 x3 x4 = rectify (combine x0 x1 x2 x3 x4) := by
  funext j
  obtain ⟨p, q, rfl⟩ : ∃ (p : Fin 5000) (q : Fin 128), j = ix2 p q := ⟨j 0, j 1, eq_ix2 j⟩
  unfold k0_pay1
  rw [shapeCast_self, shapeCast_self]
  show max (_ + _ + _) (Ideal.ofBits .f32 0x00000000#32) = max (combine x0 x1 x2 x3 x4 (ix2 p q)) 0
  rw [Ideal.ofBits_zero_f32]
  exact congrArg (max · 0) (linear_entry x0 x1 x2 x3 x4 _ p q)

/-- The second layer's body: the same, every block it loads cast to its own shape first. -/
theorem body2 (x0 x1 : Vec Ideal S5000x128 .f32) (x2 x3 : Vec Ideal S128x128 .f32) (x4 : Vec Ideal S1x128 .f32) :
    k2_pay1 x0 x1 x2 x3 x4 = rectify (combine x0 x1 x2 x3 x4) := by
  funext j
  obtain ⟨p, q, rfl⟩ : ∃ (p : Fin 5000) (q : Fin 128), j = ix2 p q := ⟨j 0, j 1, eq_ix2 j⟩
  unfold k2_pay1
  rw [shapeCast_self, shapeCast_self, shapeCast_self]
  show max (_ + _ + _) (Ideal.ofBits .f32 0x00000000#32) = max (combine x0 x1 x2 x3 x4 (ix2 p q)) 0
  rw [Ideal.ofBits_zero_f32]
  exact congrArg (max · 0) (linear_entry x0 x1 x2 x3 x4 _ p q)

/-- The last layer's body: the linear part alone. -/
theorem body4 (x0 x1 : Vec Ideal S5000x128 .f32) (x2 x3 : Vec Ideal S128x128 .f32) (x4 : Vec Ideal S1x128 .f32) :
    k4_pay1 x0 x1 x2 x3 x4 = combine x0 x1 x2 x3 x4 := by
  funext j
  obtain ⟨p, q, rfl⟩ : ∃ (p : Fin 5000) (q : Fin 128), j = ix2 p q := ⟨j 0, j 1, eq_ix2 j⟩
  unfold k4_pay1
  rw [shapeCast_self, shapeCast_self, shapeCast_self]
  exact linear_entry x0 x1 x2 x3 x4 _ p q

/-- The first normalising body, of the blocks in the order it loads them (variance, gain, the rows, mean, shift). -/
theorem body1 (x2 x3 : Vec Ideal S1x128 .f32) (x0 : Vec Ideal S5000x128 .f32) (x1 x4 : Vec Ideal S1x128 .f32) :
    k1_pay1 x2 x3 x0 x1 x4 = normalize x0 x1 x2 x3 x4 := by
  funext j
  obtain ⟨p, q, rfl⟩ : ∃ (p : Fin 5000) (q : Fin 128), j = ix2 p q := ⟨j 0, j 1, eq_ix2 j⟩
  unfold k1_pay1
  simp only [shapeCast_self, addf_apply, mulf_apply, subf_apply, broadcastTo_1b_ab_apply]
  rfl

/-- The second normalising body: the same plus the block added back. -/
theorem body3 (x2 x3 : Vec Ideal S1x128 .f32) (x0 : Vec Ideal S5000x128 .f32) (x1 x4 : Vec Ideal S1x128 .f32) (x5 : Vec Ideal S5000x128 .f32) :
    k3_pay1 x2 x3 x0 x1 x4 x5 = normalizeRes x0 x1 x2 x3 x4 x5 := by
  funext j
  obtain ⟨p, q, rfl⟩ : ∃ (p : Fin 5000) (q : Fin 128), j = ix2 p q := ⟨j 0, j 1, eq_ix2 j⟩
  unfold k3_pay1
  simp only [shapeCast_self, addf_apply, mulf_apply, subf_apply, broadcastTo_1b_ab_apply]
  rfl

end Cert.KernelIdeal.Bodies

end
-- ==== Proof.Linear0.lean ====
/-
  Layer one's linear kernel, as one function of the arrays its region finds.

  The grid has ten points; point t takes rows 5000·t … 5000·t + 4999 of the averaged neighbour features and of the
  nodes' own features, both weight matrices and the bias row whole, and writes back the same rows of the result.  The
  block a point writes is the layer function of the blocks it read (the body's payload), and that is the same rows of
  the layer function of the whole arrays, because entry (r, c) of the layer depends on row r of the tall operands only.
  The ten blocks of rows cover the result array, so after the region it holds the layer function of the whole arrays.
-/
import proofs.«114993_j59837484368530_1_alg».proof.Proof.Gen.KernelIdeal.Frame
import proofs.«114993_j59837484368530_1_alg».proof.Proof.Bodies
import Idealize.ShloMosaic.Lib.Pipeline.Value

set_option maxRecDepth 16384

noncomputable section

namespace Cert.KernelIdeal.Linear0

open Cert.KernelIdeal Cert.KernelIdeal.Gen Idealize.ShloMosaic Idealize.ShloMosaic.TcCoe Idealize.SL.Sem
open Idealize.ShloMosaic.ValueIdx Cert.GraphLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tall windows and the output sit at block row t, every other block index is zero. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The left weight matrix's window holds it whole at every point. -/
theorem whole2 (c : Dev nD) (t : Fin cfg0.N) : iblk0 V c 2 t = (V c main_arg2 : S128x128.Idx → EReal) := by
  obtain ⟨-, -, -, -, e0, e1, -⟩ := index_facts t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- So does the right weight matrix's. -/
theorem whole3 (c : Dev nD) (t : Fin cfg0.N) : iblk0 V c 3 t = (V c main_arg3 : S128x128.Idx → EReal) := by
  obtain ⟨-, -, -, -, -, -, e0, e1, -⟩ := index_facts t
  funext y
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- And the bias row's. -/
theorem whole4 (c : Dev nD) (t : Fin cfg0.N) : iblk0 V c 4 t = (V c main_v25 : S1x128.Idx → EReal) := by
  obtain ⟨-, -, -, -, -, -, -, -, e0, e1, -⟩ := index_facts t
  funext y
  show V c main_v25 (((cfg0.win 4).blk t).view.emb y) = V c main_v25 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The layer function of the whole arrays the region finds. -/
abbrev whole (c : Dev nD) : S50000x128.Idx → EReal :=
  rectify (combine (M := 50000) (K := 128) (N := 128) (V c main_v24) (V c main_arg0) (V c main_arg2) (V c main_arg3) (V c main_v25))

/-- What point t writes back is rows 5000·t … of the layer function of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Bodies.body0, whole2 V c t, whole3 V c t, whole4 V c t]
  obtain ⟨e00, e01, e10, e11, -, -, -, -, -, -, e50, e51⟩ := index_facts t
  funext y
  show rectify (combine (iblk0 V c 0 t) (iblk0 V c 1 t) (V c main_arg2) (V c main_arg3) (V c main_v25)) y
      = whole V c (((cfg0.win 5).blk t).view.emb y)
  refine rectify_combine_block_entry (M := 50000) (Mb := 5000) (K := 128) (N := 128) (V c main_v24) (V c main_arg0) (iblk0 V c 0 t) (iblk0 V c 1 t)
    (V c main_arg2) (V c main_arg3) (V c main_v25) (((cfg0.win 5).blk t).view.emb y) y (fun k => ?_) (fun k => ?_) ?_
  · show V c main_v24 (((cfg0.win 0).blk t).view.emb (ix2 (y 0) k)) = V c main_v24 (ix2 ((((cfg0.win 5).blk t).view.emb y) 0) k)
    refine congrArg _ (funext fun a => Fin.ext ?_)
    match a with
    | ⟨0, _⟩ => show win0_0.index t (0 : Fin 2) * 5000 + 1 * (y 0).val = win0_5.index t (0 : Fin 2) * 5000 + 1 * (y 0).val; rw [e00, e50]
    | ⟨1, _⟩ => show win0_0.index t (1 : Fin 2) * 128 + 1 * k.val = k.val; rw [e01]; omega
  · show V c main_arg0 (((cfg0.win 1).blk t).view.emb (ix2 (y 0) k)) = V c main_arg0 (ix2 ((((cfg0.win 5).blk t).view.emb y) 0) k)
    refine congrArg _ (funext fun a => Fin.ext ?_)
    match a with
    | ⟨0, _⟩ => show win0_1.index t (0 : Fin 2) * 5000 + 1 * (y 0).val = win0_5.index t (0 : Fin 2) * 5000 + 1 * (y 0).val; rw [e10, e50]
    | ⟨1, _⟩ => show win0_1.index t (1 : Fin 2) * 128 + 1 * k.val = k.val; rw [e11]; omega
  · show (y 1).val = win0_5.index t (1 : Fin 2) * 128 + 1 * (y 1).val
    rw [e51]; omega

/-- Every index of the result array is in the block of the point its row falls in. -/
theorem cover (i : S50000x128.Idx) : ∃ t : Fin cfg0.N, (cfg0.win 5).flush t = true ∧ i ∈ ((cfg0.win 5).blk t).view.set := by
  have hN : grid0.N = 10 := N_0
  have hi0 : (i 0).val < 50000 := (i 0).isLt
  have hi1 : (i 1).val < 128 := (i 1).isLt
  have ht : (i 0).val / 5000 < grid0.N := by rw [hN]; omega
  obtain ⟨-, -, -, -, -, -, -, -, -, -, e50, e51⟩ := index_facts ⟨(i 0).val / 5000, ht⟩
  refine ⟨⟨(i 0).val / 5000, ht⟩, flush0_5 _, ?_⟩
  show i ∈ ((View.whole main_v26).slice (win0_5.rect ⟨(i 0).val / 5000, ht⟩)).set
  rw [View.set_slice_whole, Rect.mem_set_unit]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- After the region the result array holds the layer function of the whole arrays the region found. -/
theorem final (c : Dev nD) : (dat0 V c).arrAt 5 cfg0.N = whole V c :=
  (dat0 V c).arrAt_eq_of_cover 5 (whole V c) (fun t _ => flushed_eq V c t) cover

end Cert.KernelIdeal.Linear0

end
-- ==== Proof.Normalize1.lean ====
/-
  The first normalising kernel, as one function of the arrays its region finds.

  Point t of the ten takes rows 5000·t … 5000·t + 4999 of the array to normalise, the four per-column rows
  whole, and writes back the same rows of the result: entry by entry  g·(h − mu)·rsqrt(var + eps) + be.  Entry (r, c)
  depends on entry (r, c) of the tall operand only, so the block a point writes is the same rows of the function of the
  whole arrays; the ten blocks cover the result array.
-/
import proofs.«114993_j59837484368530_1_alg».proof.Proof.Gen.KernelIdeal.Frame
import proofs.«114993_j59837484368530_1_alg».proof.Proof.Bodies
import Idealize.ShloMosaic.Lib.Pipeline.Value

set_option maxRecDepth 16384

noncomputable section

namespace Cert.KernelIdeal.Normalize1

open Cert.KernelIdeal Cert.KernelIdeal.Gen Idealize.ShloMosaic Idealize.ShloMosaic.TcCoe Idealize.SL.Sem
open Idealize.ShloMosaic.ValueIdx Cert.GraphLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tall windows and the output sit at block row t, every other block index is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The statistics row mu's window holds it whole at every point. -/
theorem whole1 (c : Dev nD) (t : Fin cfg1.N) : iblk1 V c 1 t = (V c main_v37 : S1x128.Idx → EReal) := by
  obtain ⟨-, -, e0, e1, -⟩ := index_facts t
  funext y
  show V c main_v37 (((cfg1.win 1).blk t).view.emb y) = V c main_v37 y
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The statistics row var's window holds it whole at every point. -/
theorem whole2 (c : Dev nD) (t : Fin cfg1.N) : iblk1 V c 2 t = (V c main_v38 : S1x128.Idx → EReal) := by
  obtain ⟨-, -, -, -, e0, e1, -⟩ := index_facts t
  funext y
  show V c main_v38 (((cfg1.win 2).blk t).view.emb y) = V c main_v38 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The gain row's window holds it whole at every point. -/
theorem whole3 (c : Dev nD) (t : Fin cfg1.N) : iblk1 V c 3 t = (V c main_v39 : S1x128.Idx → EReal) := by
  obtain ⟨-, -, -, -, -, -, e0, e1, -⟩ := index_facts t
  funext y
  show V c main_v39 (((cfg1.win 3).blk t).view.emb y) = V c main_v39 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The shift row's window holds it whole at every point. -/
theorem whole4 (c : Dev nD) (t : Fin cfg1.N) : iblk1 V c 4 t = (V c main_v40 : S1x128.Idx → EReal) := by
  obtain ⟨-, -, -, -, -, -, -, -, e0, e1, -⟩ := index_facts t
  funext y
  show V c main_v40 (((cfg1.win 4).blk t).view.emb y) = V c main_v40 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The normalisation of the whole arrays the region finds. -/
abbrev whole (c : Dev nD) : S50000x128.Idx → EReal :=
  normalize (M := 50000) (N := 128) (V c main_v26) (V c main_v37) (V c main_v38) (V c main_v39) (V c main_v40)

/-- What point t writes back is rows 5000·t … of the normalisation of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  rw [Bodies.body1, whole1 V c t, whole2 V c t, whole3 V c t, whole4 V c t]
  obtain ⟨e00, e01, -, -, -, -, -, -, -, -, eo0, eo1⟩ := index_facts t
  funext y
  show normalize (iblk1 V c 0 t) (V c main_v37) (V c main_v38) (V c main_v39) (V c main_v40) y
      = whole V c (((cfg1.win 5).blk t).view.emb y)
  refine normalize_block_entry (M := 50000) (Mb := 5000) (N := 128) (V c main_v26) (iblk1 V c 0 t)
    (V c main_v37) (V c main_v38) (V c main_v39) (V c main_v40) (((cfg1.win 5).blk t).view.emb y) y ?_ ?_
  · show V c main_v26 (((cfg1.win 0).blk t).view.emb y) = V c main_v26 (((cfg1.win 5).blk t).view.emb y)
    refine congrArg _ (funext fun a => Fin.ext ?_)
    match a with
    | ⟨0, _⟩ => show win1_0.index t (0 : Fin 2) * 5000 + 1 * (y 0).val = win1_5.index t (0 : Fin 2) * 5000 + 1 * (y 0).val; rw [e00, eo0]
    | ⟨1, _⟩ => show win1_0.index t (1 : Fin 2) * 128 + 1 * (y 1).val = win1_5.index t (1 : Fin 2) * 128 + 1 * (y 1).val; rw [e01, eo1]
  · show (y 1).val = win1_5.index t (1 : Fin 2) * 128 + 1 * (y 1).val
    rw [eo1]; omega

/-- Every index of the result array is in the block of the point its row falls in. -/
theorem cover (i : S50000x128.Idx) : ∃ t : Fin cfg1.N, (cfg1.win 5).flush t = true ∧ i ∈ ((cfg1.win 5).blk t).view.set := by
  have hN : grid1.N = 10 := N_1
  have hi0 : (i 0).val < 50000 := (i 0).isLt
  have hi1 : (i 1).val < 128 := (i 1).isLt
  have ht : (i 0).val / 5000 < grid1.N := by rw [hN]; omega
  obtain ⟨-, -, -, -, -, -, -, -, -, -, eo0, eo1⟩ := index_facts ⟨(i 0).val / 5000, ht⟩
  refine ⟨⟨(i 0).val / 5000, ht⟩, flush1_5 _, ?_⟩
  show i ∈ ((View.whole main_v41).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [eo1]; omega

/-- After the region the result array holds the normalisation of the whole arrays the region found. -/
theorem final (c : Dev nD) : (dat1 V c).arrAt 5 cfg1.N = whole V c :=
  (dat1 V c).arrAt_eq_of_cover 5 (whole V c) (fun t _ => flushed_eq V c t) cover

end Cert.KernelIdeal.Normalize1

end
-- ==== Proof.Linear2.lean ====
/-
  Layer two's linear kernel, as one function of the arrays its region finds.

  The grid has ten points; point t takes rows 5000·t … 5000·t + 4999 of the averaged neighbour features and of the
  nodes' own features, both weight matrices and the bias row whole, and writes back the same rows of the result.  The
  block a point writes is the layer function of the blocks it read (the body's payload), and that is the same rows of
  the layer function of the whole arrays, because entry (r, c) of the layer depends on row r of the tall operands only.
  The ten blocks of rows cover the result array, so after the region it holds the layer function of the whole arrays.
-/
import proofs.«114993_j59837484368530_1_alg».proof.Proof.Gen.KernelIdeal.Frame
import proofs.«114993_j59837484368530_1_alg».proof.Proof.Bodies
import Idealize.ShloMosaic.Lib.Pipeline.Value

set_option maxRecDepth 16384

noncomputable section

namespace Cert.KernelIdeal.Linear2

open Cert.KernelIdeal Cert.KernelIdeal.Gen Idealize.ShloMosaic Idealize.ShloMosaic.TcCoe Idealize.SL.Sem
open Idealize.ShloMosaic.ValueIdx Cert.GraphLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tall windows and the output sit at block row t, every other block index is zero. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The left weight matrix's window holds it whole at every point. -/
theorem whole2 (c : Dev nD) (t : Fin cfg2.N) : iblk2 V c 2 t = (V c main_arg5 : S128x128.Idx → EReal) := by
  obtain ⟨-, -, -, -, e0, e1, -⟩ := index_facts t
  funext y
  show V c main_arg5 (((cfg2.win 2).blk t).view.emb y) = V c main_arg5 y
  refine congrArg _ (funext fun a => Fin.ext ?_)
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

/-- So does the right weight matrix's. -/
theorem whole3 (c : Dev nD) (t : Fin cfg2.N) : iblk2 V c 3 t = (V c main_arg6 : S128x128.Idx → EReal) := by
  obtain ⟨-, -, -, -, -, -, e0, e1, -⟩ := index_facts t
  funext y
  show V c main_arg6 (((cfg2.win 3).blk t).view.emb y) = V c main_arg6 y
  refine congrArg _ (funext fun a => Fin.ext ?_)
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- And the bias row's. -/
theorem whole4 (c : Dev nD) (t : Fin cfg2.N) : iblk2 V c 4 t = (V c main_v54 : S1x128.Idx → EReal) := by
  obtain ⟨-, -, -, -, -, -, -, -, e0, e1, -⟩ := index_facts t
  funext y
  show V c main_v54 (((cfg2.win 4).blk t).view.emb y) = V c main_v54 y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- The layer function of the whole arrays the region finds. -/
abbrev whole (c : Dev nD) : S50000x128.Idx → EReal :=
  rectify (combine (M := 50000) (K := 128) (N := 128) (V c main_v53) (V c main_v41) (V c main_arg5) (V c main_arg6) (V c main_v54))

/-- What point t writes back is rows 5000·t … of the layer function of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  rw [Bodies.body2, whole2 V c t, whole3 V c t, whole4 V c t]
  obtain ⟨e00, e01, e10, e11, -, -, -, -, -, -, e50, e51⟩ := index_facts t
  funext y
  show rectify (combine (iblk2 V c 0 t) (iblk2 V c 1 t) (V c main_arg5) (V c main_arg6) (V c main_v54)) y
      = whole V c (((cfg2.win 5).blk t).view.emb y)
  refine rectify_combine_block_entry (M := 50000) (Mb := 5000) (K := 128) (N := 128) (V c main_v53) (V c main_v41) (iblk2 V c 0 t) (iblk2 V c 1 t)
    (V c main_arg5) (V c main_arg6) (V c main_v54) (((cfg2.win 5).blk t).view.emb y) y (fun k => ?_) (fun k => ?_) ?_
  · show V c main_v53 (((cfg2.win 0).blk t).view.emb (ix2 (y 0) k)) = V c main_v53 (ix2 ((((cfg2.win 5).blk t).view.emb y) 0) k)
    refine congrArg _ (funext fun a => Fin.ext ?_)
    match a with
    | ⟨0, _⟩ => show win2_0.index t (0 : Fin 2) * 5000 + 1 * (y 0).val = win2_5.index t (0 : Fin 2) * 5000 + 1 * (y 0).val; rw [e00, e50]
    | ⟨1, _⟩ => show win2_0.index t (1 : Fin 2) * 128 + 1 * k.val = k.val; rw [e01]; omega
  · show V c main_v41 (((cfg2.win 1).blk t).view.emb (ix2 (y 0) k)) = V c main_v41 (ix2 ((((cfg2.win 5).blk t).view.emb y) 0) k)
    refine congrArg _ (funext fun a => Fin.ext ?_)
    match a with
    | ⟨0, _⟩ => show win2_1.index t (0 : Fin 2) * 5000 + 1 * (y 0).val = win2_5.index t (0 : Fin 2) * 5000 + 1 * (y 0).val; rw [e10, e50]
    | ⟨1, _⟩ => show win2_1.index t (1 : Fin 2) * 128 + 1 * k.val = k.val; rw [e11]; omega
  · show (y 1).val = win2_5.index t (1 : Fin 2) * 128 + 1 * (y 1).val
    rw [e51]; omega

/-- Every index of the result array is in the block of the point its row falls in. -/
theorem cover (i : S50000x128.Idx) : ∃ t : Fin cfg2.N, (cfg2.win 5).flush t = true ∧ i ∈ ((cfg2.win 5).blk t).view.set := by
  have hN : grid2.N = 10 := N_2
  have hi0 : (i 0).val < 50000 := (i 0).isLt
  have hi1 : (i 1).val < 128 := (i 1).isLt
  have ht : (i 0).val / 5000 < grid2.N := by rw [hN]; omega
  obtain ⟨-, -, -, -, -, -, -, -, -, -, e50, e51⟩ := index_facts ⟨(i 0).val / 5000, ht⟩
  refine ⟨⟨(i 0).val / 5000, ht⟩, flush2_5 _, ?_⟩
  show i ∈ ((View.whole main_v55).slice (win2_5.rect ⟨(i 0).val / 5000, ht⟩)).set
  rw [View.set_slice_whole, Rect.mem_set_unit]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e51]; omega

/-- After the region the result array holds the layer function of the whole arrays the region found. -/
theorem final (c : Dev nD) : (dat2 V c).arrAt 5 cfg2.N = whole V c :=
  (dat2 V c).arrAt_eq_of_cover 5 (whole V c) (fun t _ => flushed_eq V c t) cover

end Cert.KernelIdeal.Linear2

end
-- ==== Proof.Normalize3.lean ====
/-
  The second normalising kernel, as one function of the arrays its region finds.

  Point t of the ten takes rows 5000·t … 5000·t + 4999 of the array to normalise and of the array added back, the four per-column rows
  whole, and writes back the same rows of the result: entry by entry  g·(h − mu)·rsqrt(var + eps) + be  plus the entry added back.  Entry (r, c)
  depends on entry (r, c) of the tall operands only, so the block a point writes is the same rows of the function of the
  whole arrays; the ten blocks cover the result array.
-/
import proofs.«114993_j59837484368530_1_alg».proof.Proof.Gen.KernelIdeal.Frame
import proofs.«114993_j59837484368530_1_alg».proof.Proof.Bodies
import Idealize.ShloMosaic.Lib.Pipeline.Value

set_option maxRecDepth 16384

noncomputable section

namespace Cert.KernelIdeal.Normalize3

open Cert.KernelIdeal Cert.KernelIdeal.Gen Idealize.ShloMosaic Idealize.ShloMosaic.TcCoe Idealize.SL.Sem
open Idealize.ShloMosaic.ValueIdx Cert.GraphLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tall windows and the output sit at block row t, every other block index is zero. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The statistics row mu's window holds it whole at every point. -/
theorem whole1 (c : Dev nD) (t : Fin cfg3.N) : iblk3 V c 1 t = (V c main_v66 : S1x128.Idx → EReal) := by
  obtain ⟨-, -, e0, e1, -⟩ := index_facts t
  funext y
  show V c main_v66 (((cfg3.win 1).blk t).view.emb y) = V c main_v66 y
  refine congrArg _ (funext fun a => Fin.ext ?_)
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- The statistics row var's window holds it whole at every point. -/
theorem whole2 (c : Dev nD) (t : Fin cfg3.N) : iblk3 V c 2 t = (V c main_v67 : S1x128.Idx → EReal) := by
  obtain ⟨-, -, -, -, e0, e1, -⟩ := index_facts t
  funext y
  show V c main_v67 (((cfg3.win 2).blk t).view.emb y) = V c main_v67 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The gain row's window holds it whole at every point. -/
theorem whole3 (c : Dev nD) (t : Fin cfg3.N) : iblk3 V c 3 t = (V c main_v68 : S1x128.Idx → EReal) := by
  obtain ⟨-, -, -, -, -, -, e0, e1, -⟩ := index_facts t
  funext y
  show V c main_v68 (((cfg3.win 3).blk t).view.emb y) = V c main_v68 y
  refine congrArg _ (funext fun a => Fin.ext ?_)
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The shift row's window holds it whole at every point. -/
theorem whole4 (c : Dev nD) (t : Fin cfg3.N) : iblk3 V c 4 t = (V c main_v69 : S1x128.Idx → EReal) := by
  obtain ⟨-, -, -, -, -, -, -, -, e0, e1, -⟩ := index_facts t
  funext y
  show V c main_v69 (((cfg3.win 4).blk t).view.emb y) = V c main_v69 y
  refine congrArg _ (funext fun a => Fin.ext ?_)
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- The normalisation of the whole arrays the region finds. -/
abbrev whole (c : Dev nD) : S50000x128.Idx → EReal :=
  normalizeRes (M := 50000) (N := 128) (V c main_v55) (V c main_v66) (V c main_v67) (V c main_v68) (V c main_v69) (V c main_v41)

/-- What point t writes back is rows 5000·t … of the normalisation of the whole arrays. -/
theorem flushed_eq (c : Dev nD) (t : Fin cfg3.N) :
    (dat3 V c).flushed 6 t = ((cfg3.win 6).blk t).view.read (Elt Ideal) (whole V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  rw [Bodies.body3, whole1 V c t, whole2 V c t, whole3 V c t, whole4 V c t]
  obtain ⟨e00, e01, -, -, -, -, -, -, -, -, e50, e51, eo0, eo1⟩ := index_facts t
  funext y
  show normalizeRes (iblk3 V c 0 t) (V c main_v66) (V c main_v67) (V c main_v68) (V c main_v69) (iblk3 V c 5 t) y
      = whole V c (((cfg3.win 6).blk t).view.emb y)
  refine normalizeRes_block_entry (M := 50000) (Mb := 5000) (N := 128) (V c main_v55) (V c main_v41) (iblk3 V c 0 t) (iblk3 V c 5 t)
    (V c main_v66) (V c main_v67) (V c main_v68) (V c main_v69) (((cfg3.win 6).blk t).view.emb y) y ?_ ?_ ?_
  · show V c main_v55 (((cfg3.win 0).blk t).view.emb y) = V c main_v55 (((cfg3.win 6).blk t).view.emb y)
    refine congrArg _ (funext fun a => Fin.ext ?_)
    match a with
    | ⟨0, _⟩ => show win3_0.index t (0 : Fin 2) * 5000 + 1 * (y 0).val = win3_6.index t (0 : Fin 2) * 5000 + 1 * (y 0).val; rw [e00, eo0]
    | ⟨1, _⟩ => show win3_0.index t (1 : Fin 2) * 128 + 1 * (y 1).val = win3_6.index t (1 : Fin 2) * 128 + 1 * (y 1).val; rw [e01, eo1]
  · show V c main_v41 (((cfg3.win 5).blk t).view.emb y) = V c main_v41 (((cfg3.win 6).blk t).view.emb y)
    refine congrArg _ (funext fun a => Fin.ext ?_)
    match a with
    | ⟨0, _⟩ => show win3_5.index t (0 : Fin 2) * 5000 + 1 * (y 0).val = win3_6.index t (0 : Fin 2) * 5000 + 1 * (y 0).val; rw [e50, eo0]
    | ⟨1, _⟩ => show win3_5.index t (1 : Fin 2) * 128 + 1 * (y 1).val = win3_6.index t (1 : Fin 2) * 128 + 1 * (y 1).val; rw [e51, eo1]
  · show (y 1).val = win3_6.index t (1 : Fin 2) * 128 + 1 * (y 1).val
    rw [eo1]; omega

/-- Every index of the result array is in the block of the point its row falls in. -/
theorem cover (i : S50000x128.Idx) : ∃ t : Fin cfg3.N, (cfg3.win 6).flush t = true ∧ i ∈ ((cfg3.win 6).blk t).view.set := by
  have hN : grid3.N = 10 := N_3
  have hi0 : (i 0).val < 50000 := (i 0).isLt
  have hi1 : (i 1).val < 128 := (i 1).isLt
  have ht : (i 0).val / 5000 < grid3.N := by rw [hN]; omega
  obtain ⟨-, -, -, -, -, -, -, -, -, -, -, -, eo0, eo1⟩ := index_facts ⟨(i 0).val / 5000, ht⟩
  refine ⟨⟨(i 0).val / 5000, ht⟩, flush3_6 _, ?_⟩
  show i ∈ ((View.whole main_v70).slice (win3_6.rect ⟨(i 0).val / 5000, ht⟩)).set
  rw [View.set_slice_whole, Rect.mem_set_unit]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [eo0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    rw [eo1]; omega

/-- After the region the result array holds the normalisation of the whole arrays the region found. -/
theorem final (c : Dev nD) : (dat3 V c).arrAt 6 cfg3.N = whole V c :=
  (dat3 V c).arrAt_eq_of_cover 6 (whole V c) (fun t _ => flushed_eq V c t) cover

end Cert.KernelIdeal.Normalize3

end
-- ==== Proof.Linear4.lean ====
/-
  Layer three's linear kernel, as one function of the arrays its region finds.

  The grid has ten points; point t takes rows 5000·t … 5000·t + 4999 of the averaged neighbour features and of the
  nodes' own features, both weight matrices and the bias row whole, and writes back the same rows of the result.  The
  block a point writes is the layer function of the blocks it read (the body's payload), and that is the same rows of
  the layer function of the whole arrays, because entry (r, c) of the layer depends on row r of the tall operands only.
  The ten blocks of rows cover the result array, so after the region it holds the layer function of the whole arrays.
-/
import proofs.«114993_j59837484368530_1_alg».proof.Proof.Gen.KernelIdeal.Frame
import proofs.«114993_j59837484368530_1_alg».proof.Proof.Bodies
import Idealize.ShloMosaic.Lib.Pipeline.Value

set_option maxRecDepth 16384

noncomputable section

namespace Cert.KernelIdeal.Linear4

open Cert.KernelIdeal Cert.KernelIdeal.Gen Idealize.ShloMosaic Idealize.ShloMosaic.TcCoe Idealize.SL.Sem
open Idealize.ShloMosaic.ValueIdx Cert.GraphLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the ten points: the tall windows and the output sit at block row t, every other block index is zero. -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The left weight matrix's window holds it whole at every point. -/
theorem whole2 (c : Dev nD) (t : Fin cfg4.N) : iblk4 V c 2 t = (V c main_arg8 : S128x128.Idx → EReal) := by
  obtain ⟨-, -, -, -, e0, e1, -⟩ := index_facts t
  funext y
  show V c main_arg8 (((cfg4.win 2).blk t).view.emb y) = V c main_arg8 y
  refine congrArg _ (funext fun a => Fin.ext ?_)
  match a with
  | ⟨0, _⟩ => show win4_2.index t (0 : Fin 2) * 128 + 1 * (y 0).val = (y 0).val; rw [e0]; omega
  | ⟨1, _⟩ => show win4_2.index t (1 : Fin 2) * 128 + 1 * (y 1).val = (y 1).val; rw [e1]; omega

/-- So does the right weight matrix's. -/
theorem whole3 (c : Dev nD) (t : Fin cfg4.N) : iblk4 V c 3 t = (V c main_arg9 : S128x128.Idx → EReal) := by
  obtain ⟨-, -, -, -, -, -, e0, e1, -⟩ := index_facts t
  funext y
  show V c main_arg9 (((cfg4.win 3).blk t).view.emb y) = V c main_arg9 y
  refine congrArg _ (funext fun a => Fin.ext ?_)
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

/-- And the bias row's. -/
theorem whole4 (c : Dev nD) (t : Fin cfg4.N) : iblk4 V c 4 t = (V c main_v83 : S1x128.Idx → EReal) := by
  obtain ⟨-, -, -, -, -, -, -, -, e0, e1, -⟩ := index_facts t
  funext y
  show V c main_v83 (((cfg4.win 4).blk t).view.emb y) = V c main_v83 y
  refine congrArg _ (funext fun a => Fin.ext ?_)
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

/-- The layer function of the whole arrays the region finds. -/
abbrev whole (c : Dev nD) : S50000x128.Idx → EReal :=
  combine (M := 50000) (K := 128) (N := 128) (V c main_v82) (V c main_v70) (V c main_arg8) (V c main_arg9) (V c main_v83)

/-- What point t writes back is rows 5000·t … of the layer function of the whole arrays. -/
theorem flushed_eq (c : Dev nD) (t : Fin cfg4.N) :
    (dat4 V c).flushed 5 t = ((cfg4.win 5).blk t).view.read (Elt Ideal) (whole V c) := by
  show (cfg4.win 5).cut (grid4.coords t) ((dat4 V c).after 5 t) = _
  rw [after4_5]
  unfold out4_5
  rw [View.canon_unit_zero hz]
  simp only [View.ld_unit_zero (S := S5000x128) hz, View.ld_unit_zero (S := S128x128) hz, View.ld_unit_zero (S := S1x128) hz]
  rw [Bodies.body4, whole2 V c t, whole3 V c t, whole4 V c t]
  obtain ⟨e00, e01, e10, e11, -, -, -, -, -, -, e50, e51⟩ := index_facts t
  funext y
  show combine (iblk4 V c 0 t) (iblk4 V c 1 t) (V c main_arg8) (V c main_arg9) (V c main_v83) y
      = whole V c (((cfg4.win 5).blk t).view.emb y)
  refine combine_block_entry (M := 50000) (Mb := 5000) (K := 128) (N := 128) (V c main_v82) (V c main_v70) (iblk4 V c 0 t) (iblk4 V c 1 t)
    (V c main_arg8) (V c main_arg9) (V c main_v83) (((cfg4.win 5).blk t).view.emb y) y (fun k => ?_) (fun k => ?_) ?_
  · show V c main_v82 (((cfg4.win 0).blk t).view.emb (ix2 (y 0) k)) = V c main_v82 (ix2 ((((cfg4.win 5).blk t).view.emb y) 0) k)
    refine congrArg _ (funext fun a => Fin.ext ?_)
    match a with
    | ⟨0, _⟩ => show win4_0.index t (0 : Fin 2) * 5000 + 1 * (y 0).val = win4_5.index t (0 : Fin 2) * 5000 + 1 * (y 0).val; rw [e00, e50]
    | ⟨1, _⟩ => show win4_0.index t (1 : Fin 2) * 128 + 1 * k.val = k.val; rw [e01]; omega
  · show V c main_v70 (((cfg4.win 1).blk t).view.emb (ix2 (y 0) k)) = V c main_v70 (ix2 ((((cfg4.win 5).blk t).view.emb y) 0) k)
    refine congrArg _ (funext fun a => Fin.ext ?_)
    match a with
    | ⟨0, _⟩ => show win4_1.index t (0 : Fin 2) * 5000 + 1 * (y 0).val = win4_5.index t (0 : Fin 2) * 5000 + 1 * (y 0).val; rw [e10, e50]
    | ⟨1, _⟩ => show win4_1.index t (1 : Fin 2) * 128 + 1 * k.val = k.val; rw [e11]; omega
  · show (y 1).val = win4_5.index t (1 : Fin 2) * 128 + 1 * (y 1).val
    rw [e51]; omega

/-- Every index of the result array is in the block of the point its row falls in. -/
theorem cover (i : S50000x128.Idx) : ∃ t : Fin cfg4.N, (cfg4.win 5).flush t = true ∧ i ∈ ((cfg4.win 5).blk t).view.set := by
  have hN : grid4.N = 10 := N_4
  have hi0 : (i 0).val < 50000 := (i 0).isLt
  have hi1 : (i 1).val < 128 := (i 1).isLt
  have ht : (i 0).val / 5000 < grid4.N := by rw [hN]; omega
  obtain ⟨-, -, -, -, -, -, -, -, -, -, e50, e51⟩ := index_facts ⟨(i 0).val / 5000, ht⟩
  refine ⟨⟨(i 0).val / 5000, ht⟩, flush4_5 _, ?_⟩
  show i ∈ ((View.whole main_v84).slice (win4_5.rect ⟨(i 0).val / 5000, ht⟩)).set
  rw [View.set_slice_whole, Rect.mem_set_unit]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    rw [e51]; omega

/-- After the region the result array holds the layer function of the whole arrays the region found. -/
theorem final (c : Dev nD) : (dat4 V c).arrAt 5 cfg4.N = whole V c :=
  (dat4 V c).arrAt_eq_of_cover 5 (whole V c) (fun t _ => flushed_eq V c t) cover

end Cert.KernelIdeal.Linear4

end
-- ==== Proof.LibGraphHostForms.lean ====
/-
  The host's spelling of each layer is the layer function.

  On the host a linear layer is two dot_general products added, plus the bias vector broadcast first to a one-row
  array and then down the rows; the rectifier is the maximum with the broadcast zero constant; the normalisation
  broadcasts each of its four per-column vectors the same way and applies the reciprocal square root to
  variance plus the offset as a vector before broadcasting it.  Read at an entry (r, c), each of these is the layer
  function of LibGraphLayers.lean at (r, c), with each vector read as a one-row array.  The statements are generic in the
  operands, so the three linear layers and the two normalisations share them; a vector reshaped to one row (how the
  kernel's wrapper passes a vector to a kernel) is the same one-row array.
-/
import proofs.«114993_j59837484368530_1_alg».proof.Proof.LibGraphLayers
import Idealize.ShloMosaic.Lib.Pipeline.Value
import Idealize.ShloMosaic.Lib.ValueLayout

noncomputable section

open scoped BigOperators

namespace Cert.GraphLayers

open Idealize.ShloMosaic Idealize.ShloMosaic.ValueIdx Idealize.ShloMosaic.PlainDot

/-- A vector reshaped to a one-row array. -/
theorem shapeCast_row {N : Nat} (b : (⟨1, ![N]⟩ : Shape).Idx → EReal) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  exact shapeCast_a_1a_apply b h u q

/-- A vector broadcast along a new leading unit axis is the same one-row array. -/
theorem broadcastInDim_row {N : Nat} (b : (⟨1, ![N]⟩ : Shape).Idx → EReal)
    (h : (⟨1, ![N]⟩ : Shape).BroadcastsInDim ⟨2, ![1, N]⟩ (![1] : Fin 1 → Fin 2)) :
    broadcastInDim ⟨2, ![1, N]⟩ ![1] h b = rowOf b := by
  funext j
  refine broadcastInDim_apply _ h b j (ix1 (j 1)) fun a => ?_
  match a with
  | ⟨0, _⟩ =>
    show (j 1).val = if N = 1 then 0 else (j 1).val
    split
    · have hlt : (j 1).val < N := (j 1).isLt
      omega
    · rfl

/-- A one-row array broadcast down the rows reads its one row. -/
theorem broadcastInDim_rows {M N : Nat} (v : (⟨2, ![1, N]⟩ : Shape).Idx → EReal)
    (h : (⟨2, ![1, N]⟩ : Shape).BroadcastsInDim ⟨2, ![M, N]⟩ (![0, 1] : Fin 2 → Fin 2)) (j : (⟨2, ![M, N]⟩ : Shape).Idx) :
    broadcastInDim ⟨2, ![M, N]⟩ ![0, 1] h v j = v (ix2 (0 : Fin 1) (j 1)) := by
  refine broadcastInDim_apply _ h v j (ix2 (0 : Fin 1) (j 1)) fun a => ?_
  match a with
  | ⟨0, _⟩ => rfl
  | ⟨1, _⟩ =>
    show (j 1).val = if N = 1 then 0 else (j 1).val
    split
    · have hlt : (j 1).val < N := (j 1).isLt
      omega
    · rfl

/-- The host's linear layer. -/
theorem host_combine {M K N : Nat} (prec : Option ContractPrecision) (sched : HostSchedule)
    (A X : FVec Ideal ⟨2, ![M, K]⟩ .f32) (Wl Wr : FVec Ideal ⟨2, ![K, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (addf (FloatOps.dotGeneral (DotDims.plain M K N) prec sched A Wl) (FloatOps.dotGeneral (DotDims.plain M K N) prec sched X Wr))
        (broadcastInDim ⟨2, ![M, N]⟩ ![0, 1] h2 (broadcastInDim ⟨2, ![1, N]⟩ ![1] h1 b))
      = combine A X Wl Wr (rowOf b) := by
  funext j
  show FloatOps.dotGeneral (DotDims.plain M K N) prec sched A Wl j + FloatOps.dotGeneral (DotDims.plain M K N) prec sched X Wr j
      + broadcastInDim ⟨2, ![M, N]⟩ ![0, 1] h2 (broadcastInDim ⟨2, ![1, N]⟩ ![1] h1 b) j = _
  rw [dotGeneral_eq_mm, dotGeneral_eq_mm, broadcastInDim_rows, broadcastInDim_row]
  rfl

/-- The host's rectifier: the maximum with the broadcast zero constant. -/
theorem host_rectify {M N : Nat} (H : FVec Ideal ⟨2, ![M, N]⟩ .f32)
    (h0 : (⟨0, ![]⟩ : Shape).BroadcastsInDim ⟨2, ![M, N]⟩ (![] : Fin 0 → Fin 2)) :
    maximumf H (broadcastInDim ⟨2, ![M, N]⟩ ![] h0 (constant (F := Ideal) ⟨0, ![]⟩ .f32 0x00000000#32)) = rectify H := by
  funext j
  show max (H j) (Ideal.ofBits .f32 0x00000000#32) = max (H j) 0
  rw [Ideal.ofBits_zero_f32]

/-- The host's normalisation, from the statistics vectors. -/
theorem host_normalize {M N : Nat} (H : FVec Ideal ⟨2, ![M, N]⟩ .f32) (mu var g be : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf (mulf (mulf (broadcastInDim ⟨2, ![M, N]⟩ ![0, 1] h2 (broadcastInDim ⟨2, ![1, N]⟩ ![1] h1 g))
                     (subf H (broadcastInDim ⟨2, ![M, N]⟩ ![0, 1] h2 (broadcastInDim ⟨2, ![1, N]⟩ ![1] h1 mu))))
               (broadcastInDim ⟨2, ![M, N]⟩ ![0, 1] h2 (broadcastInDim ⟨2, ![1, N]⟩ ![1] h1
                  (Host.rsqrt (addf var (broadcastInDim ⟨1, ![N]⟩ ![] h0 (constant (F := Ideal) ⟨0, ![]⟩ .f32 0x3727C5AC#32)))))))
         (broadcastInDim ⟨2, ![M, N]⟩ ![0, 1] h2 (broadcastInDim ⟨2, ![1, N]⟩ ![1] h1 be))
      = normalize H (rowOf mu) (rowOf var) (rowOf g) (rowOf be) := by
  funext j
  show broadcastInDim ⟨2, ![M, N]⟩ ![0, 1] h2 (broadcastInDim ⟨2, ![1, N]⟩ ![1] h1 g) j
        * (H j - broadcastInDim ⟨2, ![M, N]⟩ ![0, 1] h2 (broadcastInDim ⟨2, ![1, N]⟩ ![1] h1 mu) j)
        * broadcastInDim ⟨2, ![M, N]⟩ ![0, 1] h2 (broadcastInDim ⟨2, ![1, N]⟩ ![1] h1
            (Host.rsqrt (addf var (broadcastInDim ⟨1, ![N]⟩ ![] h0 (constant (F := Ideal) ⟨0, ![]⟩ .f32 0x3727C5AC#32))))) j
      + broadcastInDim ⟨2, ![M, N]⟩ ![0, 1] h2 (broadcastInDim ⟨2, ![1, N]⟩ ![1] h1 be) j = _
  rw [broadcastInDim_rows, broadcastInDim_rows, broadcastInDim_rows, broadcastInDim_rows,
      broadcastInDim_row, broadcastInDim_row, broadcastInDim_row, broadcastInDim_row]
  rfl

end Cert.GraphLayers

end
-- ==== Proof.RefStages.lean ====
/-
  The reference program's five layer results, each as the layer function of the stage before it.

  The reference computes, in order: the first linear layer rectified; its column-wise normalisation; the second
  linear layer rectified, on the normalised array and its neighbour average; that layer's normalisation plus the first
  normalised array; the third linear layer.  Each is the host's spelling of the layer function of LibGraphLayers.lean, whatever
  the operands are (LibGraphHostForms.lean), so each stage is that function of the earlier stages and of the arguments.
-/
import proofs.«114993_j59837484368530_1_alg».proof.Proof.Gen.ReferenceIdeal.Read
import proofs.«114993_j59837484368530_1_alg».proof.Proof.LibGraphHostForms

noncomputable section

namespace Cert.ReferenceIdeal.Stages

open Cert.ReferenceIdeal Cert.ReferenceIdeal.Read Idealize.ShloMosaic Idealize.ShloMosaic.ValueIdx Cert.GraphLayers

/-- The first layer, rectified. -/
theorem layer1 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) :
    val_main_v31 (F := Ideal) x0 x1 x2 x3 x4
      = rectify (combine (M := 50000) (K := 128) (N := 128) (val_main_v24 (F := Ideal) x0 x1) x0 x2 x3 (rowOf x4)) :=
  (host_rectify _ _).trans (congrArg rectify (host_combine _ _ _ _ _ _ _ _ _))

/-- Its normalisation. -/
theorem norm1 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x11 : (⟨S128, .f32⟩ : BufTy).Contents (Elt Ideal)) (x12 : (⟨S128, .f32⟩ : BufTy).Contents (Elt Ideal)) :
    val_main_v56 (F := Ideal) x0 x1 x2 x3 x4 x11 x12
      = normalize (M := 50000) (N := 128) (val_main_v31 (F := Ideal) x0 x1 x2 x3 x4) (rowOf (val_main_v34 (F := Ideal) x0 x1 x2 x3 x4))
          (rowOf (val_main_v41 (F := Ideal) x0 x1 x2 x3 x4)) (rowOf x11) (rowOf x12) :=
  host_normalize _ _ _ _ _ _ _ _

/-- The second layer, rectified. -/
theorem layer2 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x11 : (⟨S128, .f32⟩ : BufTy).Contents (Elt Ideal)) (x12 : (⟨S128, .f32⟩ : BufTy).Contents (Elt Ideal)) :
    val_main_v75 (F := Ideal) x0 x1 x2 x3 x4 x5 x6 x7 x11 x12
      = rectify (combine (M := 50000) (K := 128) (N := 128) (val_main_v68 (F := Ideal) x0 x1 x2 x3 x4 x11 x12)
          (val_main_v56 (F := Ideal) x0 x1 x2 x3 x4 x11 x12) x5 x6 (rowOf x7)) :=
  (host_rectify _ _).trans (congrArg rectify (host_combine _ _ _ _ _ _ _ _ _))

/-- Its normalisation, with the first normalised array added back. -/
theorem norm2 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) :
    val_main_v101 (F := Ideal) x0 x1 x2 x3 x4 x5 x6 x7 x11 x12 x13 x14
      = normalizeRes (M := 50000) (N := 128) (val_main_v75 (F := Ideal) x0 x1 x2 x3 x4 x5 x6 x7 x11 x12)
          (rowOf (val_main_v78 (F := Ideal) x0 x1 x2 x3 x4 x5 x6 x7 x11 x12)) (rowOf (val_main_v85 (F := Ideal) x0 x1 x2 x3 x4 x5 x6 x7 x11 x12))
          (rowOf x13) (rowOf x14) (val_main_v56 (F := Ideal) x0 x1 x2 x3 x4 x11 x12) :=
  congrArg (fun H : FVec Ideal ⟨2, ![50000, 128]⟩ .f32 => addf H (val_main_v56 (F := Ideal) x0 x1 x2 x3 x4 x11 x12))
    (host_normalize (M := 50000) (N := 128) _ _ _ _ _ _ _ _)

/-- The third layer. -/
theorem layer3 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) :
    val_main_v119 (F := Ideal) x0 x1 x2 x3 x4 x5 x6 x7 x8 x9 x10 x11 x12 x13 x14
      = combine (M := 50000) (K := 128) (N := 128) (val_main_v113 (F := Ideal) x0 x1 x2 x3 x4 x5 x6 x7 x11 x12 x13 x14)
          (val_main_v101 (F := Ideal) x0 x1 x2 x3 x4 x5 x6 x7 x11 x12 x13 x14) x8 x9 (rowOf x10) :=
  host_combine _ _ _ _ _ _ _ _ _

end Cert.ReferenceIdeal.Stages

end
-- ==== Proof.Chain.lean ====
/-
  The idealized kernel program's result is the reference's last stage.

  The kernel program is the reference's straight line with each dense layer cut out into a region: the host stretch
  before a region computes the layer's operands with the reference's own operations (the neighbour average by gather,
  scatter-add and the reciprocal degrees; the column means and variances), the region computes the layer block of rows
  by block of rows, and the next stretch goes on from its result.  Boundary by boundary, each buffer a later
  segment reads holds the reference's stage of the same name: after a stretch, because it applied the reference's
  operations to buffers that held the reference's stages; after a region, because the region's result array is the
  layer function of the whole arrays it found (Linear0 … Linear4), which is how the reference's stage reads
  (RefStages.lean).  Buffers no segment writes in between (the arguments, the edge lists, the reciprocal degrees) are
  carried from boundary to boundary unchanged.  At the last boundary the result buffer holds the reference's last stage.
-/
import proofs.«114993_j59837484368530_1_alg».proof.Proof.Linear0
import proofs.«114993_j59837484368530_1_alg».proof.Proof.Normalize1
import proofs.«114993_j59837484368530_1_alg».proof.Proof.Linear2
import proofs.«114993_j59837484368530_1_alg».proof.Proof.Normalize3
import proofs.«114993_j59837484368530_1_alg».proof.Proof.Linear4
import proofs.«114993_j59837484368530_1_alg».proof.Proof.RefStages
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx Cert.GraphLayers Cert.ReferenceIdeal.Read
open Idealize.ShloMosaic.Pipeline (Dat)

variable (m : (ℓ : Loc nD τ sig) → Buf (Elt Ideal) ℓ) (ρ : Dev nD → PrngReg) (c : Dev nD)

/-! ## Buffers carried unchanged from boundary to boundary -/

theorem at1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl
theorem at2_v1 : W2 m ρ c (Proc.devRef .tc main_v1) = val_main_v1 (F := Ideal) (m ((c : Thread nD τ).loc main_arg1)) :=
  (W2_of_ne m ρ c main_v1 (by decide)).trans (at1_v1 m ρ c)
theorem at3_v1 : W3 m ρ c (Proc.devRef .tc main_v1) = val_main_v1 (F := Ideal) (m ((c : Thread nD τ).loc main_arg1)) := by
  show StableHlo.after hostOps1 (W2 m ρ c) (Proc.devRef .tc main_v1) = _
  after_results_simp
  exact at2_v1 m ρ c
theorem at4_v1 : W4 m ρ c (Proc.devRef .tc main_v1) = val_main_v1 (F := Ideal) (m ((c : Thread nD τ).loc main_arg1)) :=
  (W4_of_ne m ρ c main_v1 (by decide)).trans (at3_v1 m ρ c)
theorem at5_v1 : W5 m ρ c (Proc.devRef .tc main_v1) = val_main_v1 (F := Ideal) (m ((c : Thread nD τ).loc main_arg1)) := by
  show StableHlo.after hostOps2 (W4 m ρ c) (Proc.devRef .tc main_v1) = _
  after_results_simp
  exact at4_v1 m ρ c
theorem at6_v1 : W6 m ρ c (Proc.devRef .tc main_v1) = val_main_v1 (F := Ideal) (m ((c : Thread nD τ).loc main_arg1)) :=
  (W6_of_ne m ρ c main_v1 (by decide)).trans (at5_v1 m ρ c)
theorem at7_v1 : W7 m ρ c (Proc.devRef .tc main_v1) = val_main_v1 (F := Ideal) (m ((c : Thread nD τ).loc main_arg1)) := by
  show StableHlo.after hostOps3 (W6 m ρ c) (Proc.devRef .tc main_v1) = _
  after_results_simp
  exact at6_v1 m ρ c
theorem at8_v1 : W8 m ρ c (Proc.devRef .tc main_v1) = val_main_v1 (F := Ideal) (m ((c : Thread nD τ).loc main_arg1)) :=
  (W8_of_ne m ρ c main_v1 (by decide)).trans (at7_v1 m ρ c)

theorem at1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl
theorem at2_v3 : W2 m ρ c (Proc.devRef .tc main_v3) = val_main_v3 (F := Ideal) (m ((c : Thread nD τ).loc main_arg1)) :=
  (W2_of_ne m ρ c main_v3 (by decide)).trans (at1_v3 m ρ c)
theorem at3_v3 : W3 m ρ c (Proc.devRef .tc main_v3) = val_main_v3 (F := Ideal) (m ((c : Thread nD τ).loc main_arg1)) := by
  show StableHlo.after hostOps1 (W2 m ρ c) (Proc.devRef .tc main_v3) = _
  after_results_simp
  exact at2_v3 m ρ c
theorem at4_v3 : W4 m ρ c (Proc.devRef .tc main_v3) = val_main_v3 (F := Ideal) (m ((c : Thread nD τ).loc main_arg1)) :=
  (W4_of_ne m ρ c main_v3 (by decide)).trans (at3_v3 m ρ c)
theorem at5_v3 : W5 m ρ c (Proc.devRef .tc main_v3) = val_main_v3 (F := Ideal) (m ((c : Thread nD τ).loc main_arg1)) := by
  show StableHlo.after hostOps2 (W4 m ρ c) (Proc.devRef .tc main_v3) = _
  after_results_simp
  exact at4_v3 m ρ c
theorem at6_v3 : W6 m ρ c (Proc.devRef .tc main_v3) = val_main_v3 (F := Ideal) (m ((c : Thread nD τ).loc main_arg1)) :=
  (W6_of_ne m ρ c main_v3 (by decide)).trans (at5_v3 m ρ c)
theorem at7_v3 : W7 m ρ c (Proc.devRef .tc main_v3) = val_main_v3 (F := Ideal) (m ((c : Thread nD τ).loc main_arg1)) := by
  show StableHlo.after hostOps3 (W6 m ρ c) (Proc.devRef .tc main_v3) = _
  after_results_simp
  exact at6_v3 m ρ c
theorem at8_v3 : W8 m ρ c (Proc.devRef .tc main_v3) = val_main_v3 (F := Ideal) (m ((c : Thread nD τ).loc main_arg1)) :=
  (W8_of_ne m ρ c main_v3 (by decide)).trans (at7_v3 m ρ c)

theorem at1_v12 : W1 m ρ c (Proc.devRef .tc main_v12) = val_main_v12 (F := Ideal) (m ((c : Thread nD τ).loc main_arg1)) := by
  show StableHlo.after hostOps0 (W0 m ρ c) (Proc.devRef .tc main_v12) = _
  after_results_simp
  rfl
theorem at2_v12 : W2 m ρ c (Proc.devRef .tc main_v12) = val_main_v12 (F := Ideal) (m ((c : Thread nD τ).loc main_arg1)) :=
  (W2_of_ne m ρ c main_v12 (by decide)).trans (at1_v12 m ρ c)
theorem at3_v12 : W3 m ρ c (Proc.devRef .tc main_v12) = val_main_v12 (F := Ideal) (m ((c : Thread nD τ).loc main_arg1)) := by
  show StableHlo.after hostOps1 (W2 m ρ c) (Proc.devRef .tc main_v12) = _
  after_results_simp
  exact at2_v12 m ρ c
theorem at4_v12 : W4 m ρ c (Proc.devRef .tc main_v12) = val_main_v12 (F := Ideal) (m ((c : Thread nD τ).loc main_arg1)) :=
  (W4_of_ne m ρ c main_v12 (by decide)).trans (at3_v12 m ρ c)
theorem at5_v12 : W5 m ρ c (Proc.devRef .tc main_v12) = val_main_v12 (F := Ideal) (m ((c : Thread nD τ).loc main_arg1)) := by
  show StableHlo.after hostOps2 (W4 m ρ c) (Proc.devRef .tc main_v12) = _
  after_results_simp
  exact at4_v12 m ρ c
theorem at6_v12 : W6 m ρ c (Proc.devRef .tc main_v12) = val_main_v12 (F := Ideal) (m ((c : Thread nD τ).loc main_arg1)) :=
  (W6_of_ne m ρ c main_v12 (by decide)).trans (at5_v12 m ρ c)
theorem at7_v12 : W7 m ρ c (Proc.devRef .tc main_v12) = val_main_v12 (F := Ideal) (m ((c : Thread nD τ).loc main_arg1)) := by
  show StableHlo.after hostOps3 (W6 m ρ c) (Proc.devRef .tc main_v12) = _
  after_results_simp
  exact at6_v12 m ρ c
theorem at8_v12 : W8 m ρ c (Proc.devRef .tc main_v12) = val_main_v12 (F := Ideal) (m ((c : Thread nD τ).loc main_arg1)) :=
  (W8_of_ne m ρ c main_v12 (by decide)).trans (at7_v12 m ρ c)

theorem at1_arg7 : W1 m ρ c (Proc.devRef .tc main_arg7) = (m ((c : Thread nD τ).loc main_arg7)) := by
  show StableHlo.after hostOps0 (W0 m ρ c) (Proc.devRef .tc main_arg7) = _
  after_results_simp
theorem at2_arg7 : W2 m ρ c (Proc.devRef .tc main_arg7) = (m ((c : Thread nD τ).loc main_arg7)) :=
  (W2_of_ne m ρ c main_arg7 (by decide)).trans (at1_arg7 m ρ c)
theorem at3_arg7 : W3 m ρ c (Proc.devRef .tc main_arg7) = (m ((c : Thread nD τ).loc main_arg7)) := by
  show StableHlo.after hostOps1 (W2 m ρ c) (Proc.devRef .tc main_arg7) = _
  after_results_simp
  exact at2_arg7 m ρ c
theorem at4_arg7 : W4 m ρ c (Proc.devRef .tc main_arg7) = (m ((c : Thread nD τ).loc main_arg7)) :=
  (W4_of_ne m ρ c main_arg7 (by decide)).trans (at3_arg7 m ρ c)

theorem at1_arg10 : W1 m ρ c (Proc.devRef .tc main_arg10) = (m ((c : Thread nD τ).loc main_arg10)) := by
  show StableHlo.after hostOps0 (W0 m ρ c) (Proc.devRef .tc main_arg10) = _
  after_results_simp
theorem at2_arg10 : W2 m ρ c (Proc.devRef .tc main_arg10) = (m ((c : Thread nD τ).loc main_arg10)) :=
  (W2_of_ne m ρ c main_arg10 (by decide)).trans (at1_arg10 m ρ c)
theorem at3_arg10 : W3 m ρ c (Proc.devRef .tc main_arg10) = (m ((c : Thread nD τ).loc main_arg10)) := by
  show StableHlo.after hostOps1 (W2 m ρ c) (Proc.devRef .tc main_arg10) = _
  after_results_simp
  exact at2_arg10 m ρ c
theorem at4_arg10 : W4 m ρ c (Proc.devRef .tc main_arg10) = (m ((c : Thread nD τ).loc main_arg10)) :=
  (W4_of_ne m ρ c main_arg10 (by decide)).trans (at3_arg10 m ρ c)
theorem at5_arg10 : W5 m ρ c (Proc.devRef .tc main_arg10) = (m ((c : Thread nD τ).loc main_arg10)) := by
  show StableHlo.after hostOps2 (W4 m ρ c) (Proc.devRef .tc main_arg10) = _
  after_results_simp
  exact at4_arg10 m ρ c
theorem at6_arg10 : W6 m ρ c (Proc.devRef .tc main_arg10) = (m ((c : Thread nD τ).loc main_arg10)) :=
  (W6_of_ne m ρ c main_arg10 (by decide)).trans (at5_arg10 m ρ c)
theorem at7_arg10 : W7 m ρ c (Proc.devRef .tc main_arg10) = (m ((c : Thread nD τ).loc main_arg10)) := by
  show StableHlo.after hostOps3 (W6 m ρ c) (Proc.devRef .tc main_arg10) = _
  after_results_simp
  exact at6_arg10 m ρ c
theorem at8_arg10 : W8 m ρ c (Proc.devRef .tc main_arg10) = (m ((c : Thread nD τ).loc main_arg10)) :=
  (W8_of_ne m ρ c main_arg10 (by decide)).trans (at7_arg10 m ρ c)

theorem at1_arg11 : W1 m ρ c (Proc.devRef .tc main_arg11) = (m ((c : Thread nD τ).loc main_arg11)) := by
  show StableHlo.after hostOps0 (W0 m ρ c) (Proc.devRef .tc main_arg11) = _
  after_results_simp
theorem at2_arg11 : W2 m ρ c (Proc.devRef .tc main_arg11) = (m ((c : Thread nD τ).loc main_arg11)) :=
  (W2_of_ne m ρ c main_arg11 (by decide)).trans (at1_arg11 m ρ c)

theorem at1_arg12 : W1 m ρ c (Proc.devRef .tc main_arg12) = (m ((c : Thread nD τ).loc main_arg12)) := by
  show StableHlo.after hostOps0 (W0 m ρ c) (Proc.devRef .tc main_arg12) = _
  after_results_simp
theorem at2_arg12 : W2 m ρ c (Proc.devRef .tc main_arg12) = (m ((c : Thread nD τ).loc main_arg12)) :=
  (W2_of_ne m ρ c main_arg12 (by decide)).trans (at1_arg12 m ρ c)

theorem at1_arg13 : W1 m ρ c (Proc.devRef .tc main_arg13) = (m ((c : Thread nD τ).loc main_arg13)) := by
  show StableHlo.after hostOps0 (W0 m ρ c) (Proc.devRef .tc main_arg13) = _
  after_results_simp
theorem at2_arg13 : W2 m ρ c (Proc.devRef .tc main_arg13) = (m ((c : Thread nD τ).loc main_arg13)) :=
  (W2_of_ne m ρ c main_arg13 (by decide)).trans (at1_arg13 m ρ c)
theorem at3_arg13 : W3 m ρ c (Proc.devRef .tc main_arg13) = (m ((c : Thread nD τ).loc main_arg13)) := by
  show StableHlo.after hostOps1 (W2 m ρ c) (Proc.devRef .tc main_arg13) = _
  after_results_simp
  exact at2_arg13 m ρ c
theorem at4_arg13 : W4 m ρ c (Proc.devRef .tc main_arg13) = (m ((c : Thread nD τ).loc main_arg13)) :=
  (W4_of_ne m ρ c main_arg13 (by decide)).trans (at3_arg13 m ρ c)
theorem at5_arg13 : W5 m ρ c (Proc.devRef .tc main_arg13) = (m ((c : Thread nD τ).loc main_arg13)) := by
  show StableHlo.after hostOps2 (W4 m ρ c) (Proc.devRef .tc main_arg13) = _
  after_results_simp
  exact at4_arg13 m ρ c
theorem at6_arg13 : W6 m ρ c (Proc.devRef .tc main_arg13) = (m ((c : Thread nD τ).loc main_arg13)) :=
  (W6_of_ne m ρ c main_arg13 (by decide)).trans (at5_arg13 m ρ c)

theorem at1_arg14 : W1 m ρ c (Proc.devRef .tc main_arg14) = (m ((c : Thread nD τ).loc main_arg14)) := by
  show StableHlo.after hostOps0 (W0 m ρ c) (Proc.devRef .tc main_arg14) = _
  after_results_simp
theorem at2_arg14 : W2 m ρ c (Proc.devRef .tc main_arg14) = (m ((c : Thread nD τ).loc main_arg14)) :=
  (W2_of_ne m ρ c main_arg14 (by decide)).trans (at1_arg14 m ρ c)
theorem at3_arg14 : W3 m ρ c (Proc.devRef .tc main_arg14) = (m ((c : Thread nD τ).loc main_arg14)) := by
  show StableHlo.after hostOps1 (W2 m ρ c) (Proc.devRef .tc main_arg14) = _
  after_results_simp
  exact at2_arg14 m ρ c
theorem at4_arg14 : W4 m ρ c (Proc.devRef .tc main_arg14) = (m ((c : Thread nD τ).loc main_arg14)) :=
  (W4_of_ne m ρ c main_arg14 (by decide)).trans (at3_arg14 m ρ c)
theorem at5_arg14 : W5 m ρ c (Proc.devRef .tc main_arg14) = (m ((c : Thread nD τ).loc main_arg14)) := by
  show StableHlo.after hostOps2 (W4 m ρ c) (Proc.devRef .tc main_arg14) = _
  after_results_simp
  exact at4_arg14 m ρ c
theorem at6_arg14 : W6 m ρ c (Proc.devRef .tc main_arg14) = (m ((c : Thread nD τ).loc main_arg14)) :=
  (W6_of_ne m ρ c main_arg14 (by decide)).trans (at5_arg14 m ρ c)

theorem at1_arg5 : W1 m ρ c (Proc.devRef .tc main_arg5) = (m ((c : Thread nD τ).loc main_arg5)) := by
  show StableHlo.after hostOps0 (W0 m ρ c) (Proc.devRef .tc main_arg5) = _
  after_results_simp
theorem at2_arg5 : W2 m ρ c (Proc.devRef .tc main_arg5) = (m ((c : Thread nD τ).loc main_arg5)) :=
  (W2_of_ne m ρ c main_arg5 (by decide)).trans (at1_arg5 m ρ c)
theorem at3_arg5 : W3 m ρ c (Proc.devRef .tc main_arg5) = (m ((c : Thread nD τ).loc main_arg5)) := by
  show StableHlo.after hostOps1 (W2 m ρ c) (Proc.devRef .tc main_arg5) = _
  after_results_simp
  exact at2_arg5 m ρ c
theorem at4_arg5 : W4 m ρ c (Proc.devRef .tc main_arg5) = (m ((c : Thread nD τ).loc main_arg5)) :=
  (W4_of_ne m ρ c main_arg5 (by decide)).trans (at3_arg5 m ρ c)
theorem at5_arg5 : W5 m ρ c (Proc.devRef .tc main_arg5) = (m ((c : Thread nD τ).loc main_arg5)) := by
  show StableHlo.after hostOps2 (W4 m ρ c) (Proc.devRef .tc main_arg5) = _
  after_results_simp
  exact at4_arg5 m ρ c

theorem at1_arg6 : W1 m ρ c (Proc.devRef .tc main_arg6) = (m ((c : Thread nD τ).loc main_arg6)) := by
  show StableHlo.after hostOps0 (W0 m ρ c) (Proc.devRef .tc main_arg6) = _
  after_results_simp
theorem at2_arg6 : W2 m ρ c (Proc.devRef .tc main_arg6) = (m ((c : Thread nD τ).loc main_arg6)) :=
  (W2_of_ne m ρ c main_arg6 (by decide)).trans (at1_arg6 m ρ c)
theorem at3_arg6 : W3 m ρ c (Proc.devRef .tc main_arg6) = (m ((c : Thread nD τ).loc main_arg6)) := by
  show StableHlo.after hostOps1 (W2 m ρ c) (Proc.devRef .tc main_arg6) = _
  after_results_simp
  exact at2_arg6 m ρ c
theorem at4_arg6 : W4 m ρ c (Proc.devRef .tc main_arg6) = (m ((c : Thread nD τ).loc main_arg6)) :=
  (W4_of_ne m ρ c main_arg6 (by decide)).trans (at3_arg6 m ρ c)
theorem at5_arg6 : W5 m ρ c (Proc.devRef .tc main_arg6) = (m ((c : Thread nD τ).loc main_arg6)) := by
  show StableHlo.after hostOps2 (W4 m ρ c) (Proc.devRef .tc main_arg6) = _
  after_results_simp
  exact at4_arg6 m ρ c

theorem at1_arg8 : W1 m ρ c (Proc.devRef .tc main_arg8) = (m ((c : Thread nD τ).loc main_arg8)) := by
  show StableHlo.after hostOps0 (W0 m ρ c) (Proc.devRef .tc main_arg8) = _
  after_results_simp
theorem at2_arg8 : W2 m ρ c (Proc.devRef .tc main_arg8) = (m ((c : Thread nD τ).loc main_arg8)) :=
  (W2_of_ne m ρ c main_arg8 (by decide)).trans (at1_arg8 m ρ c)
theorem at3_arg8 : W3 m ρ c (Proc.devRef .tc main_arg8) = (m ((c : Thread nD τ).loc main_arg8)) := by
  show StableHlo.after hostOps1 (W2 m ρ c) (Proc.devRef .tc main_arg8) = _
  after_results_simp
  exact at2_arg8 m ρ c
theorem at4_arg8 : W4 m ρ c (Proc.devRef .tc main_arg8) = (m ((c : Thread nD τ).loc main_arg8)) :=
  (W4_of_ne m ρ c main_arg8 (by decide)).trans (at3_arg8 m ρ c)
theorem at5_arg8 : W5 m ρ c (Proc.devRef .tc main_arg8) = (m ((c : Thread nD τ).loc main_arg8)) := by
  show StableHlo.after hostOps2 (W4 m ρ c) (Proc.devRef .tc main_arg8) = _
  after_results_simp
  exact at4_arg8 m ρ c
theorem at6_arg8 : W6 m ρ c (Proc.devRef .tc main_arg8) = (m ((c : Thread nD τ).loc main_arg8)) :=
  (W6_of_ne m ρ c main_arg8 (by decide)).trans (at5_arg8 m ρ c)
theorem at7_arg8 : W7 m ρ c (Proc.devRef .tc main_arg8) = (m ((c : Thread nD τ).loc main_arg8)) := by
  show StableHlo.after hostOps3 (W6 m ρ c) (Proc.devRef .tc main_arg8) = _
  after_results_simp
  exact at6_arg8 m ρ c
theorem at8_arg8 : W8 m ρ c (Proc.devRef .tc main_arg8) = (m ((c : Thread nD τ).loc main_arg8)) :=
  (W8_of_ne m ρ c main_arg8 (by decide)).trans (at7_arg8 m ρ c)
theorem at9_arg8 : W9 m ρ c (Proc.devRef .tc main_arg8) = (m ((c : Thread nD τ).loc main_arg8)) := by
  show StableHlo.after hostOps4 (W8 m ρ c) (Proc.devRef .tc main_arg8) = _
  after_results_simp
  exact at8_arg8 m ρ c

theorem at1_arg9 : W1 m ρ c (Proc.devRef .tc main_arg9) = (m ((c : Thread nD τ).loc main_arg9)) := by
  show StableHlo.after hostOps0 (W0 m ρ c) (Proc.devRef .tc main_arg9) = _
  after_results_simp
theorem at2_arg9 : W2 m ρ c (Proc.devRef .tc main_arg9) = (m ((c : Thread nD τ).loc main_arg9)) :=
  (W2_of_ne m ρ c main_arg9 (by decide)).trans (at1_arg9 m ρ c)
theorem at3_arg9 : W3 m ρ c (Proc.devRef .tc main_arg9) = (m ((c : Thread nD τ).loc main_arg9)) := by
  show StableHlo.after hostOps1 (W2 m ρ c) (Proc.devRef .tc main_arg9) = _
  after_results_simp
  exact at2_arg9 m ρ c
theorem at4_arg9 : W4 m ρ c (Proc.devRef .tc main_arg9) = (m ((c : Thread nD τ).loc main_arg9)) :=
  (W4_of_ne m ρ c main_arg9 (by decide)).trans (at3_arg9 m ρ c)
theorem at5_arg9 : W5 m ρ c (Proc.devRef .tc main_arg9) = (m ((c : Thread nD τ).loc main_arg9)) := by
  show StableHlo.after hostOps2 (W4 m ρ c) (Proc.devRef .tc main_arg9) = _
  after_results_simp
  exact at4_arg9 m ρ c
theorem at6_arg9 : W6 m ρ c (Proc.devRef .tc main_arg9) = (m ((c : Thread nD τ).loc main_arg9)) :=
  (W6_of_ne m ρ c main_arg9 (by decide)).trans (at5_arg9 m ρ c)
theorem at7_arg9 : W7 m ρ c (Proc.devRef .tc main_arg9) = (m ((c : Thread nD τ).loc main_arg9)) := by
  show StableHlo.after hostOps3 (W6 m ρ c) (Proc.devRef .tc main_arg9) = _
  after_results_simp
  exact at6_arg9 m ρ c
theorem at8_arg9 : W8 m ρ c (Proc.devRef .tc main_arg9) = (m ((c : Thread nD τ).loc main_arg9)) :=
  (W8_of_ne m ρ c main_arg9 (by decide)).trans (at7_arg9 m ρ c)
theorem at9_arg9 : W9 m ρ c (Proc.devRef .tc main_arg9) = (m ((c : Thread nD τ).loc main_arg9)) := by
  show StableHlo.after hostOps4 (W8 m ρ c) (Proc.devRef .tc main_arg9) = _
  after_results_simp
  exact at8_arg9 m ρ c

/-! ## Layer one -/

theorem in1_agg : V1 m ρ c main_v24 = val_main_v24 (F := Ideal) (m ((c : Thread nD τ).loc main_arg0)) (m ((c : Thread nD τ).loc main_arg1)) := by
  show StableHlo.after hostOps0 (W0 m ρ c) (Proc.devRef .tc main_v24) = _
  after_results_simp
  rfl

theorem in1_x : V1 m ρ c main_arg0 = (m ((c : Thread nD τ).loc main_arg0)) := by
  show StableHlo.after hostOps0 (W0 m ρ c) (Proc.devRef .tc main_arg0) = _
  after_results_simp

theorem in1_wl : V1 m ρ c main_arg2 = (m ((c : Thread nD τ).loc main_arg2)) := by
  show StableHlo.after hostOps0 (W0 m ρ c) (Proc.devRef .tc main_arg2) = _
  after_results_simp

theorem in1_wr : V1 m ρ c main_arg3 = (m ((c : Thread nD τ).loc main_arg3)) := by
  show StableHlo.after hostOps0 (W0 m ρ c) (Proc.devRef .tc main_arg3) = _
  after_results_simp

theorem in1_b : V1 m ρ c main_v25 = rowOf (m ((c : Thread nD τ).loc main_arg4)) := by
  show StableHlo.after hostOps0 (W0 m ρ c) (Proc.devRef .tc main_v25) = _
  after_results_simp
  exact shapeCast_row _ _

/-- After region 0 its result array holds the reference's first rectified layer. -/
theorem out1 : W2 m ρ c (Proc.devRef .tc main_v26) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ?_
  rw [Linear0.final (V1 m ρ) c]
  show rectify (combine (V1 m ρ c main_v24) (V1 m ρ c main_arg0) (V1 m ρ c main_arg2) (V1 m ρ c main_arg3) (V1 m ρ c main_v25)) = _
  rw [in1_agg, in1_x, in1_wl, in1_wr, in1_b]
  exact (Cert.ReferenceIdeal.Stages.layer1 _ _ _ _ _).symm

/-! ## The first normalisation -/

theorem in2_h : V3 m ρ c main_v26 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp
  exact out1 m ρ c

theorem in2_mu : V3 m ρ c main_v37 = rowOf (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v37) = _
  after_results_simp
  rw [out1 m ρ c]
  exact shapeCast_row _ _

theorem in2_var : V3 m ρ c main_v38 = rowOf (val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v38) = _
  after_results_simp
  rw [out1 m ρ c]
  exact shapeCast_row _ _

theorem in2_g : V3 m ρ c main_v39 = rowOf (m ((c : Thread nD τ).loc main_arg11)) := by
  show StableHlo.after hostOps1 (W2 m ρ c) (Proc.devRef .tc main_v39) = _
  after_results_simp
  rw [at2_arg11 m ρ c]
  exact shapeCast_row _ _

theorem in2_be : V3 m ρ c main_v40 = rowOf (m ((c : Thread nD τ).loc main_arg12)) := by
  show StableHlo.after hostOps1 (W2 m ρ c) (Proc.devRef .tc main_v40) = _
  after_results_simp
  rw [at2_arg12 m ρ c]
  exact shapeCast_row _ _

/-- After region 1 its result array holds the reference's first normalised array. -/
theorem out2 : W4 m ρ c (Proc.devRef .tc main_v41) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  refine (W4_arr m ρ c 5).trans ?_
  rw [Normalize1.final (V3 m ρ) c]
  show normalize (V3 m ρ c main_v26) (V3 m ρ c main_v37) (V3 m ρ c main_v38) (V3 m ρ c main_v39) (V3 m ρ c main_v40) = _
  rw [in2_h, in2_mu, in2_var, in2_g, in2_be]
  exact (Cert.ReferenceIdeal.Stages.norm1 _ _ _ _ _ _ _).symm

/-! ## Layer two -/

theorem in3_agg : V5 m ρ c main_v53 = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  show StableHlo.after hostOps2 (W4 m ρ c) (Proc.devRef .tc main_v53) = _
  after_results_simp
  rw [out2 m ρ c, at4_v1 m ρ c, at4_v3 m ρ c, at4_v12 m ρ c]
  rfl

theorem in3_x : V5 m ρ c main_v41 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  show StableHlo.after hostOps2 (W4 m ρ c) (Proc.devRef .tc main_v41) = _
  after_results_simp
  exact out2 m ρ c

theorem in3_wl : V5 m ρ c main_arg5 = (m ((c : Thread nD τ).loc main_arg5)) := at5_arg5 m ρ c

theorem in3_wr : V5 m ρ c main_arg6 = (m ((c : Thread nD τ).loc main_arg6)) := at5_arg6 m ρ c

theorem in3_b : V5 m ρ c main_v54 = rowOf (m ((c : Thread nD τ).loc main_arg7)) := by
  show StableHlo.after hostOps2 (W4 m ρ c) (Proc.devRef .tc main_v54) = _
  after_results_simp
  rw [at4_arg7 m ρ c]
  exact shapeCast_row _ _

/-- After region 2 its result array holds the reference's second rectified layer. -/
theorem out3 : W6 m ρ c (Proc.devRef .tc main_v55) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) := by
  refine (W6_arr m ρ c 5).trans ?_
  rw [Linear2.final (V5 m ρ) c]
  show rectify (combine (V5 m ρ c main_v53) (V5 m ρ c main_v41) (V5 m ρ c main_arg5) (V5 m ρ c main_arg6) (V5 m ρ c main_v54)) = _
  rw [in3_agg, in3_x, in3_wl, in3_wr, in3_b]
  exact (Cert.ReferenceIdeal.Stages.layer2 _ _ _ _ _ _ _ _ _ _).symm

/-- Region 2 only reads the first normalised array: it is still there afterwards. -/
theorem kept3_x : W6 m ρ c (Proc.devRef .tc main_v41) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) :=
  ((W6_arr m ρ c 1).trans (((dat2 (V5 m ρ) c).arrAt_in 1 rfl _).trans (A_eq2 (V5 m ρ) c 1))).trans (in3_x m ρ c)

/-! ## The second normalisation -/

theorem in4_h : V7 m ρ c main_v55 = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) := by
  show StableHlo.after hostOps3 (W6 m ρ c) (Proc.devRef .tc main_v55) = _
  after_results_simp
  exact out3 m ρ c

theorem in4_mu : V7 m ρ c main_v66 = rowOf (val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12))) := by
  show StableHlo.after hostOps3 (W6 m ρ c) (Proc.devRef .tc main_v66) = _
  after_results_simp
  rw [out3 m ρ c]
  exact shapeCast_row _ _

theorem in4_var : V7 m ρ c main_v67 = rowOf (val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12))) := by
  show StableHlo.after hostOps3 (W6 m ρ c) (Proc.devRef .tc main_v67) = _
  after_results_simp
  rw [out3 m ρ c]
  exact shapeCast_row _ _

theorem in4_g : V7 m ρ c main_v68 = rowOf (m ((c : Thread nD τ).loc main_arg13)) := by
  show StableHlo.after hostOps3 (W6 m ρ c) (Proc.devRef .tc main_v68) = _
  after_results_simp
  rw [at6_arg13 m ρ c]
  exact shapeCast_row _ _

theorem in4_be : V7 m ρ c main_v69 = rowOf (m ((c : Thread nD τ).loc main_arg14)) := by
  show StableHlo.after hostOps3 (W6 m ρ c) (Proc.devRef .tc main_v69) = _
  after_results_simp
  rw [at6_arg14 m ρ c]
  exact shapeCast_row _ _

theorem in4_res : V7 m ρ c main_v41 = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  show StableHlo.after hostOps3 (W6 m ρ c) (Proc.devRef .tc main_v41) = _
  after_results_simp
  exact kept3_x m ρ c

/-- After region 3 its result array holds the reference's second normalised array plus the first. -/
theorem out4 : W8 m ρ c (Proc.devRef .tc main_v70) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) := by
  refine (W8_arr m ρ c 6).trans ?_
  rw [Normalize3.final (V7 m ρ) c]
  show normalizeRes (V7 m ρ c main_v55) (V7 m ρ c main_v66) (V7 m ρ c main_v67) (V7 m ρ c main_v68) (V7 m ρ c main_v69) (V7 m ρ c main_v41) = _
  rw [in4_h, in4_mu, in4_var, in4_g, in4_be, in4_res]
  exact (Cert.ReferenceIdeal.Stages.norm2 _ _ _ _ _ _ _ _ _ _ _ _).symm

/-! ## Layer three -/

theorem in5_agg : V9 m ρ c main_v82 = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) := by
  show StableHlo.after hostOps4 (W8 m ρ c) (Proc.devRef .tc main_v82) = _
  after_results_simp
  rw [out4 m ρ c, at8_v1 m ρ c, at8_v3 m ρ c, at8_v12 m ρ c]
  rfl

theorem in5_x : V9 m ρ c main_v70 = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) := by
  show StableHlo.after hostOps4 (W8 m ρ c) (Proc.devRef .tc main_v70) = _
  after_results_simp
  exact out4 m ρ c

theorem in5_wl : V9 m ρ c main_arg8 = (m ((c : Thread nD τ).loc main_arg8)) := at9_arg8 m ρ c

theorem in5_wr : V9 m ρ c main_arg9 = (m ((c : Thread nD τ).loc main_arg9)) := at9_arg9 m ρ c

theorem in5_b : V9 m ρ c main_v83 = rowOf (m ((c : Thread nD τ).loc main_arg10)) := by
  show StableHlo.after hostOps4 (W8 m ρ c) (Proc.devRef .tc main_v83) = _
  after_results_simp
  rw [at8_arg10 m ρ c]
  exact shapeCast_row _ _

/-- After the last region the result buffer holds the reference's last stage. -/
theorem result : W10 m ρ c (Proc.devRef .tc main_v84) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 5).trans ?_
  rw [Linear4.final (V9 m ρ) c]
  show combine (V9 m ρ c main_v82) (V9 m ρ c main_v70) (V9 m ρ c main_arg8) (V9 m ρ c main_arg9) (V9 m ρ c main_v83) = _
  rw [in5_agg, in5_x, in5_wl, in5_wr, in5_b]
  exact (Cert.ReferenceIdeal.Stages.layer3 _ _ _ _ _ _ _ _ _ _ _ _ _ _ _).symm

end Cert.KernelIdeal.Chain

end
-- ==== Proof.lean ====
/-
  The certificate of a three-layer graph network's forward pass: tiled dense layers against the plain reference.

  Both programs compute, from node features x, an edge list and per-layer weights: the reciprocal in-degrees; for each
  of three layers the neighbour average  agg·(1/deg)  by gather and scatter-add, then  agg·Wl + x·Wr + b ; after the
  first two layers the maximum with zero and a column-wise normalisation  g·(h − mean)·rsqrt(var + eps) + be  over all
  nodes, the second followed by adding the first normalised array back.  The kernel program computes each dense layer
  and each normalisation in a region that walks the 50000 rows in ten blocks of 5000, and everything else with the
  reference's own host operations; the reference is one straight line of host operations.

  At the ideal values the two are one function: a conversion to a narrower float format is the identity, a product
  into the zero accumulator and the host's dot_general are the same sum over the contracted index, and each layer's
  entry (r, c) depends on row r of its tall operands only, so computing it block of rows by block of rows gives the
  rows of the layer on the whole arrays.  No law that needs finite values is used, so the precondition is not opened.
  The idealization rewrote no operation, so there is nothing to preserve beyond the program text.
-/
import proofs.«114993_j59837484368530_1_alg».proof.Defs
import proofs.«114993_j59837484368530_1_alg».proof.Proof.Gen.Kernel
import proofs.«114993_j59837484368530_1_alg».proof.Proof.Gen.Kernel.Frame
import proofs.«114993_j59837484368530_1_alg».proof.Proof.Gen.KernelIdeal
import proofs.«114993_j59837484368530_1_alg».proof.Proof.Gen.KernelIdeal.Frame
import proofs.«114993_j59837484368530_1_alg».proof.Proof.Gen.ReferenceIdeal
import proofs.«114993_j59837484368530_1_alg».proof.Proof.Gen.Pre_finite_inputs
import proofs.«114993_j59837484368530_1_alg».proof.Proof.Gen.ReferenceIdeal.Run
import proofs.«114993_j59837484368530_1_alg».proof.Proof.Gen.ReferenceIdeal.Read
import proofs.«114993_j59837484368530_1_alg».proof.Proof.Run
import proofs.«114993_j59837484368530_1_alg».proof.Proof.Chain
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's last stage of the (agreeing) arguments in their result buffers. -/
theorem algebraic : Cert.algebraic_KernelIdeal_ReferenceIdeal := by
  intro m ρ m' ρ' _ hagree
  refine ⟨fun c => Cert.ReferenceIdeal.Read.val_main_v119 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Chain.result m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v119_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
